-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S8x1024x2048 : Shape := ⟨3, ![8, 1024, 2048]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S8x1024x2048 : S_.BroadcastsInDim S8x1024x2048 (![] : Fin 0 → Fin S8x1024x2048.rank)
  reducesTo_S8x1024x2048_S_d0_1_2 : S8x1024x2048.ReducesTo [0, 1, 2] S_

variable [Facts]

def fn {F : FTy → Type} [FloatOps F] (main_arg0 : FVec F S8x2048x1024 .f32) (main_arg1 : FVec F S8x1024x2048 .f32) (main_arg2 : FVec F S8x2048x1024 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S8x1024x2048 .f32 := Host.absf main_arg1
  let main_cst_0 : FVec F S_ .f32 := constant S_ .f32 0x7F800000#32
  let main_v5 : FVec F S8x1024x2048 .f32 := broadcastInDim S8x1024x2048 ![] bcast_S_S8x1024x2048 main_cst_0
  let main_v6 : IVec S8x1024x2048 1 := cmpf .olt main_v4 main_v5
  let main_c_1 : IVec S_ 1 := constantI S_ 1 1#1
  let main_v7 : IVec S_ 1 := (fun x v => Host.reduce IntOp.andi x v reducesTo_S8x1024x2048_S_d0_1_2 h_S_) main_v6 main_c_1
  let main_v8 : IVec S_ 1 := andi main_v3 main_v7
  let main_v9 : FVec F S8x2048x1024 .f32 := Host.absf main_arg2
  let main_cst_2 : FVec F S_ .f32 := constant S_ .f32 0x7F800000#32
  let main_v10 : FVec F S8x2048x1024 .f32 := broadcastInDim S8x2048x1024 ![] bcast_S_S8x2048x1024 main_cst_2
  let main_v11 : IVec S8x2048x1024 1 := cmpf .olt main_v9 main_v10
  let main_c_3 : IVec S_ 1 := constantI S_ 1 1#1
  let main_v12 : IVec S_ 1 := (fun x v => Host.reduce IntOp.andi x v reducesTo_S8x2048x1024_S_d0_1_2 h_S_) main_v11 main_c_3
  let main_v13 : IVec S_ 1 := andi main_v8 main_v12
  main_v13
-- ==== Kernel.lean ====
abbrev S8x2048x1024 : Shape := ⟨3, ![8, 2048, 1024]⟩
abbrev S8x1024x2048 : Shape := ⟨3, ![8, 1024, 2048]⟩
abbrev S1x1024x1024 : Shape := ⟨3, ![1, 1024, 1024]⟩
abbrev S1x1024x256 : Shape := ⟨3, ![1, 1024, 256]⟩
abbrev S1x256x1024 : Shape := ⟨3, ![1, 256, 1024]⟩
abbrev S1024x1 : Shape := ⟨2, ![1024, 1]⟩
abbrev S1024x1024 : Shape := ⟨2, ![1024, 1024]⟩
abbrev S1024x256 : Shape := ⟨2, ![1024, 256]⟩
abbrev S256x1024 : Shape := ⟨2, ![256, 1024]⟩
abbrev S1024 : Shape := ⟨1, ![1024]⟩

abbrev nBuf : Space → Nat
  | .hbm => 4
  | .vmem => 11
  | .smem => 0
  | _ => 0

abbrev bufTy : (tb : Table) → Fin (tcTables nBuf tb) → BufTy
  | .hbm, ⟨0, _⟩ => ⟨S8x2048x1024, .f32⟩
  | .hbm, ⟨1, _⟩ => ⟨S8x1024x2048, .f32⟩
  | .hbm, ⟨2, _⟩ => ⟨S8x2048x1024, .f32⟩
  | .hbm, ⟨3, _⟩ => ⟨S8x2048x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x256, .f32⟩
  | .local _ .vmem, ⟨3, _⟩ => ⟨S1x1024x256, .f32⟩
  | .local _ .vmem, ⟨4, _⟩ => ⟨S1x256x1024, .f32⟩
  | .local _ .vmem, ⟨5, _⟩ => ⟨S1x256x1024, .f32⟩
  | .local _ .vmem, ⟨6, _⟩ => ⟨S1x1024x1024, .f32⟩
  | .local _ .vmem, ⟨7, _⟩ => ⟨S1x1024x1024, .f32⟩
  | .local _ .vmem, ⟨8, _⟩ => ⟨S1024x1, .f32⟩
  | .local _ .vmem, ⟨9, _⟩ => ⟨S1024x1, .f32⟩
  | .local _ .vmem, ⟨10, _⟩ => ⟨S1024x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 8], ![false, false, false]⟩

def k0_cond2 (i : grid0.Coords) : BitVec 1 :=
  let arg2 : BitVec 32 := BitVec.ofNat 32 (i 2).val
  let c7_i32 : BitVec 32 := 7#32
  let v44 : BitVec 1 := Scalar.cmpi .eq arg2 c7_i32
  let v45 : BitVec 32 := Scalar.extui v44
  let c0_i32_25 : BitVec 32 := 0#32
  let v46 : BitVec 1 := Scalar.cmpi .ne v45 c0_i32_25
  v46

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  bitsLt_bf16_f32 : FTy.bits .bf16 < FTy.bits .f32
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  reduces_S1024x256_S1024 : S1024x256.Reduces [1] S1024
  shapeCasts_S1024_S1024x1 : S1024.ShapeCasts S1024x1
  broadcasts_S1024x1_S1024x256 : S1024x1.Broadcasts S1024x256
  broadcasts_S1024x1_S1024x1024 : S1024x1.Broadcasts S1024x1024
  shapeCasts_S1024x1024_S1x1024x1024 : S1024x1024.ShapeCasts S1x1024x1024
  dot_S1024x1024_S1024x256_S1024x256_1_0_0_1_n_n_wf : DotDims.WF S1024x1024 S1024x256 S1024x256 [1] [0] [0] [1] [] []
  dot_S1024x256_S256x1024_S1024x1024_1_0_0_1_n_n_wf : DotDims.WF S1024x256 S256x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S8x2048x1024.size a
  hwx0_0 : ∀ i : grid0.Coords, EltTy.bits .f32 = 32 ∨ (Rect.block (s := S8x2048x1024) S1x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x256.size a ≤ S8x1024x2048.size a
  hwx0_1 : ∀ i : grid0.Coords, EltTy.bits .f32 = 32 ∨ (Rect.block (s := S8x1024x2048) S1x1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x1024.size a ≤ S8x2048x1024.size a
  hwx0_2 : ∀ i : grid0.Coords, EltTy.bits .f32 = 32 ∨ (Rect.block (s := S8x2048x1024) S1x256x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x1024.size a ≤ S8x2048x1024.size a
  hwx0_3 : ∀ i : grid0.Coords, EltTy.bits .f32 = 32 ∨ (Rect.block (s := S8x2048x1024) S1x1024x1024.size (cc0_transform_3 i) (hinb0_3 i)).WholeWords (EltTy.packing .f32)

variable [Facts₀]

def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf
def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf

abbrev win0_0 : Pipeline.Window sig grid0 :=
  Pipeline.Window.ofSpec (Memref.whole main_arg0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8x2048x1024 : Shape := ⟨3, ![8, 2048, 1024]⟩
abbrev S8x1024x2048 : Shape := ⟨3, ![8, 1024, 2048]⟩
abbrev S8x2048x2048 : Shape := ⟨3, ![8, 2048, 2048]⟩
abbrev S_ : Shape := ⟨0, ![]⟩
abbrev S8x2048 : Shape := ⟨2, ![8, 2048]⟩
abbrev S8x2048x1 : Shape := ⟨3, ![8, 2048, 1]⟩

abbrev nBuf : Space → Nat
  | .hbm => 22
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x1024x2048, .f32⟩
  | .hbm, ⟨2, _⟩ => ⟨S8x2048x1024, .f32⟩
  | .hbm, ⟨3, _⟩ => ⟨S8x2048x2048, .f32⟩
  | .hbm, ⟨4, _⟩ => ⟨S_, .f32⟩
  | .hbm, ⟨5, _⟩ => ⟨S8x2048x2048, .f32⟩
  | .hbm, ⟨6, _⟩ => ⟨S8x2048x2048, .f32⟩
  | .hbm, ⟨7, _⟩ => ⟨S_, .f32⟩
  | .hbm, ⟨8, _⟩ => ⟨S8x2048, .f32⟩
  | .hbm, ⟨9, _⟩ => ⟨S_, .f32⟩
  | .hbm, ⟨10, _⟩ => ⟨S8x2048, .f32⟩
  | .hbm, ⟨11, _⟩ => ⟨S8x2048, .f32⟩
  | .hbm, ⟨12, _⟩ => ⟨S8x2048x1, .f32⟩
  | .hbm, ⟨13, _⟩ => ⟨S8x2048x2048, .f32⟩
  | .hbm, ⟨14, _⟩ => ⟨S8x2048x2048, .f32⟩
  | .hbm, ⟨15, _⟩ => ⟨S8x2048x2048, .f32⟩
  | .hbm, ⟨16, _⟩ => ⟨S_, .f32⟩
  | .hbm, ⟨17, _⟩ => ⟨S8x2048, .f32⟩
  | .hbm, ⟨18, _⟩ => ⟨S8x2048x1, .f32⟩
  | .hbm, ⟨19, _⟩ => ⟨S8x2048x2048, .f32⟩
  | .hbm, ⟨20, _⟩ => ⟨S8x2048x2048, .f32⟩
  | .hbm, ⟨21, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]

class Facts₀ : Prop where
  bcast_S_S8x2048x2048 : S_.BroadcastsInDim S8x2048x2048 (![] : Fin 0 → Fin S8x2048x2048.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  dot_S8x2048x1024_S8x1024x2048_S8x2048x2048_2_1_1_2_0_0_wf : DotDims.WF S8x2048x1024 S8x1024x2048 S8x2048x2048 [2] [1] [1] [2] [0] [0]
  dot_S8x2048x2048_S8x2048x1024_S8x2048x1024_2_1_1_2_0_0_wf : DotDims.WF S8x2048x2048 S8x2048x1024 S8x2048x1024 [2] [1] [1] [2] [0] [0]

variable [Facts₀]

def dot_S8x2048x1024_S8x1024x2048_S8x2048x2048_2_1_1_2_0_0 : DotDims S8x2048x1024 S8x1024x2048 S8x2048x2048 where
  lhsContracting := [2]
  rhsContracting := [1]
  lhsNonContracting := [1]
  rhsNonContracting := [2]
  lhsBatch := [0]
  rhsBatch := [0]
  wf := dot_S8x2048x1024_S8x1024x2048_S8x2048x2048_2_1_1_2_0_0_wf
def dot_S8x2048x2048_S8x2048x1024_S8x2048x1024_2_1_1_2_0_0 : DotDims S8x2048x2048 S8x2048x1024 S8x2048x1024 where
  lhsContracting := [2]
  rhsContracting := [1]
  lhsNonContracting := [1]
  rhsNonContracting := [2]
  lhsBatch := [0]
  rhsBatch := [0]
  wf := dot_S8x2048x2048_S8x2048x1024_S8x2048x1024_2_1_1_2_0_0_wf

class Facts : Prop extends Facts₀ where

variable [Facts]
-- ==== Proof.Softmax.lean ====
/-
  Online softmax on the extended reals.

  A row of attention is, for scores `s j` and values `w j`, the average of `w` weighted by
  `exp (s j - M) / ∑ j', exp (s j' - M)` with `M` the largest score (`attnRow`).  The blocked form
  keeps, block after block of 256 columns, the running maximum `m`, the normaliser `l` and the
  weighted sum `a`, rescaling the old `l` and `a` by `exp (m_old - m_new)` (`step`, `state`).
  For finite scores and values the two agree (`online_eq`): with `m` the maximum so far,
  `exp (m_old - m) * ∑ exp (s - m_old) = ∑ exp (s - m)`, and dividing a sum by the normaliser is
  the sum of the quotients.
-/
import Idealize.ShloMosaic.PureOps.Ideal.Laws

open scoped BigOperators

noncomputable section

namespace Cert.Attn

open Idealize.ShloMosaic

/-- One pass: the softmax-weighted average of `w` under the scores `s`, the maximum taken from `-∞`
    and the normaliser from `0`. -/
def attnRow {N : ℕ} (s w : Fin N → EReal) : EReal :=
  ∑ j, Ideal.div (Ideal.exp (s j - max ⊥ (Finset.univ.fold max ⊥ s)))
        (0 + ∑ j', Ideal.exp (s j' - max ⊥ (Finset.univ.fold max ⊥ s))) * w j

/-- One block of the online form: from the running maximum, normaliser and weighted sum `(m, l, a)` and a
    block of scores `S` and values `W`, the new triple. -/
def step (S W : Fin 256 → EReal) (st : EReal × EReal × EReal) : EReal × EReal × EReal :=
  (max st.1 (Finset.univ.fold max ⊥ S),
   Ideal.exp (st.1 - max st.1 (Finset.univ.fold max ⊥ S)) * st.2.1
     + ∑ i, Ideal.exp (S i - max st.1 (Finset.univ.fold max ⊥ S)),
   Ideal.exp (st.1 - max st.1 (Finset.univ.fold max ⊥ S)) * st.2.2
     + ∑ i, Ideal.exp (S i - max st.1 (Finset.univ.fold max ⊥ S)) * W i)

/-- The triple after blocks `0 … n`, started from `(-∞, 0, 0)`. -/
def state (S W : ℕ → Fin 256 → EReal) : ℕ → EReal × EReal × EReal
  | 0 => step (S 0) (W 0) (⊥, 0, 0)
  | n + 1 => step (S (n + 1)) (W (n + 1)) (state S W n)

/-- Column `j` of 2048 lies in block `j / 256` at place `j % 256`. -/
def place (j : Fin 2048) : Fin 256 := ⟨j.val % 256, Nat.mod_lt _ (by norm_num)⟩

/-! ### Finite sums and maxima of reals, read in the extended reals -/

/-- A finite sum of reals is the same sum taken in the extended reals. -/
theorem coe_sum {ι : Type*} (s : Finset ι) (f : ι → ℝ) :
    (∑ i ∈ s, (f i : EReal)) = ((∑ i ∈ s, f i : ℝ) : EReal) := by
  classical
  refine Finset.induction_on s (by simp) ?_
  intro a s ha ih
  rw [Finset.sum_insert ha, Finset.sum_insert ha, ih, EReal.coe_add]

/-- The maximum of two reals, read in the extended reals. -/
theorem coe_max (x y : ℝ) : max (x : EReal) (y : EReal) = ((max x y : ℝ) : EReal) :=
  (EReal.coe_strictMono.monotone.map_max).symm

/-- The largest of a block of 256 reals. -/
def bmax (f : Fin 256 → ℝ) : ℝ := Finset.univ.sup' Finset.univ_nonempty f

/-- The maximum of a block from -∞ is the largest entry. -/
theorem fold_max_coe (f : Fin 256 → ℝ) :
    Finset.univ.fold max ⊥ (fun i => (f i : EReal)) = (bmax f : EReal) := by
  apply le_antisymm
  · exact (Finset.fold_max_le _).2
      ⟨bot_le, fun i _ => EReal.coe_le_coe_iff.2 (Finset.le_sup' f (Finset.mem_univ i))⟩
  · obtain ⟨i, _, hi⟩ := Finset.exists_mem_eq_sup' Finset.univ_nonempty f
    exact (Finset.le_fold_max _).2 (Or.inr ⟨i, Finset.mem_univ i, by rw [bmax, hi]⟩)

/-! ### One block, on reals -/

/-- The first block: from (-∞, 0, 0) the old terms vanish (exp (-∞) = 0). -/
theorem step_bot (f g : Fin 256 → ℝ) :
    step (fun i => (f i : EReal)) (fun i => (g i : EReal)) (⊥, 0, 0)
      = ((bmax f : EReal), ((∑ i, Real.exp (f i - bmax f) : ℝ) : EReal),
         ((∑ i, Real.exp (f i - bmax f) * g i : ℝ) : EReal)) := by
  simp only [step, fold_max_coe, max_bot_left, EReal.bot_sub, Ideal.exp_bot, zero_mul, zero_add,
    ← EReal.coe_sub, Ideal.exp_coe, ← EReal.coe_mul, coe_sum]

/-- A later block: from a finite triple, a finite triple. -/
theorem step_coe (f g : Fin 256 → ℝ) (m l a : ℝ) :
    step (fun i => (f i : EReal)) (fun i => (g i : EReal)) ((m : EReal), (l : EReal), (a : EReal))
      = (((max m (bmax f) : ℝ) : EReal),
         ((Real.exp (m - max m (bmax f)) * l + ∑ i, Real.exp (f i - max m (bmax f)) : ℝ) : EReal),
         ((Real.exp (m - max m (bmax f)) * a
            + ∑ i, Real.exp (f i - max m (bmax f)) * g i : ℝ) : EReal)) := by
  simp only [step, fold_max_coe, coe_max, ← EReal.coe_sub, Ideal.exp_coe, ← EReal.coe_mul, coe_sum,
    ← EReal.coe_add]

/-- Changing the reference point of the exponentials from m to m' multiplies by exp (m - m'). -/
theorem rescale {ι : Type*} (m m' : ℝ) (s : Finset ι) (f : ι → ℝ) :
    Real.exp (m - m') * ∑ i ∈ s, Real.exp (f i - m) = ∑ i ∈ s, Real.exp (f i - m') := by
  rw [Finset.mul_sum]
  refine Finset.sum_congr rfl fun i _ => ?_
  rw [← Real.exp_add]; congr 1; ring

/-- The same for the weighted sums. -/
theorem rescale_w {ι : Type*} (m m' : ℝ) (s : Finset ι) (f g : ι → ℝ) :
    Real.exp (m - m') * ∑ i ∈ s, Real.exp (f i - m) * g i = ∑ i ∈ s, Real.exp (f i - m') * g i := by
  rw [Finset.mul_sum]
  refine Finset.sum_congr rfl fun i _ => ?_
  rw [← mul_assoc, ← Real.exp_add]; congr 2; ring

/-! ### The running maximum and the state after n blocks -/

/-- The largest score in blocks 0 … n. -/
def mR (S : ℕ → Fin 256 → ℝ) : ℕ → ℝ
  | 0 => bmax (S 0)
  | n + 1 => max (mR S n) (bmax (S (n + 1)))

theorem le_mR (S : ℕ → Fin 256 → ℝ) {k n : ℕ} (h : k ≤ n) (i : Fin 256) : S k i ≤ mR S n := by
  induction n with
  | zero =>
    obtain rfl : k = 0 := by omega
    exact Finset.le_sup' (S 0) (Finset.mem_univ i)
  | succ n ih =>
    rcases Nat.lt_or_ge k (n + 1) with h' | h'
    · exact le_trans (ih (by omega)) (le_max_left _ _)
    · obtain rfl : k = n + 1 := by omega
      exact le_trans (Finset.le_sup' (S (n + 1)) (Finset.mem_univ i)) (le_max_right _ _)

theorem exists_eq_mR (S : ℕ → Fin 256 → ℝ) (n : ℕ) : ∃ k, k ≤ n ∧ ∃ i, mR S n = S k i := by
  induction n with
  | zero =>
    obtain ⟨i, _, hi⟩ := Finset.exists_mem_eq_sup' Finset.univ_nonempty (S 0)
    exact ⟨0, le_rfl, i, hi⟩
  | succ n ih =>
    obtain ⟨k, hk, i, h⟩ := ih
    rcases max_cases (mR S n) (bmax (S (n + 1))) with ⟨h1, _⟩ | ⟨h1, _⟩
    · exact ⟨k, by omega, i, by show max _ _ = _; rw [h1, h]⟩
    · obtain ⟨i', _, hi'⟩ := Finset.exists_mem_eq_sup' Finset.univ_nonempty (S (n + 1))
      exact ⟨n + 1, le_rfl, i', by show max _ _ = _; rw [h1]; exact hi'⟩

/-- After blocks 0 … n the triple is (m, ∑ exp (s - m), ∑ exp (s - m) w) with m the largest score so far. -/
theorem state_coe (S W : ℕ → Fin 256 → ℝ) (n : ℕ) :
    state (fun n i => (S n i : EReal)) (fun n i => (W n i : EReal)) n
      = ((mR S n : EReal),
         ((∑ k ∈ Finset.range (n + 1), ∑ i, Real.exp (S k i - mR S n) : ℝ) : EReal),
         ((∑ k ∈ Finset.range (n + 1), ∑ i, Real.exp (S k i - mR S n) * W k i : ℝ) : EReal)) := by
  induction n with
  | zero =>
    simp only [state]
    rw [step_bot]
    simp [mR]
  | succ n ih =>
    simp only [state]
    rw [ih, step_coe]
    have hm : max (mR S n) (bmax (S (n + 1))) = mR S (n + 1) := rfl
    rw [hm, Finset.sum_range_succ _ (n + 1), Finset.sum_range_succ _ (n + 1), Finset.mul_sum, Finset.mul_sum]
    simp only [rescale, rescale_w]

/-! ### All 2048 columns at once -/

/-- The maximum over all columns from -∞ is the largest score of the eight blocks. -/
theorem fold_max_all (S : ℕ → Fin 256 → ℝ) :
    Finset.univ.fold max ⊥ (fun j : Fin 2048 => (S (j.val / 256) (place j) : EReal))
      = (mR S 7 : EReal) := by
  apply le_antisymm
  · refine (Finset.fold_max_le _).2 ⟨bot_le, fun j _ => EReal.coe_le_coe_iff.2 (le_mR S ?_ _)⟩
    have := j.isLt; omega
  · obtain ⟨k, hk, i, h⟩ := exists_eq_mR S 7
    have hi := i.isLt
    refine (Finset.le_fold_max _).2 (Or.inr ⟨⟨256 * k + i.val, by omega⟩, Finset.mem_univ _, ?_⟩)
    have h1 : (256 * k + i.val) / 256 = k := by omega
    have h2 : place ⟨256 * k + i.val, by omega⟩ = i := Fin.ext (by simp only [place]; omega)
    simp only [h1, h2, h]; exact le_rfl

/-- A sum over the 2048 columns is the sum over the eight blocks of the sums over their 256 places. -/
theorem sum_blocks {α : Type*} [AddCommMonoid α] (F : ℕ → Fin 256 → α) :
    ∑ j : Fin 2048, F (j.val / 256) (place j) = ∑ k ∈ Finset.range 8, ∑ i, F k i := by
  rw [Finset.sum_range (fun k => ∑ i, F k i), ← Fintype.sum_prod_type' (fun (k : Fin 8) i => F k.val i)]
  exact Fintype.sum_equiv (finProdFinEquiv (m := 8) (n := 256)).symm _ _ (fun j => rfl)

/-- ONLINE = ONE PASS, for finite scores and values: after the eight blocks of 256 columns the weighted sum over
    the normaliser is the softmax-weighted average over all 2048 columns. -/
theorem online_eq (S W : ℕ → Fin 256 → ℝ) :
    Ideal.div (state (fun n i => (S n i : EReal)) (fun n i => (W n i : EReal)) 7).2.2
        (state (fun n i => (S n i : EReal)) (fun n i => (W n i : EReal)) 7).2.1
      = attnRow (N := 2048) (fun j => (S (j.val / 256) (place j) : EReal)) (fun j => (W (j.val / 256) (place j) : EReal)) := by
  rw [state_coe]
  have hL : 0 < ∑ k ∈ Finset.range (7 + 1), ∑ i, Real.exp (S k i - mR S 7) :=
    Finset.sum_pos (fun k _ => Finset.sum_pos (fun i _ => Real.exp_pos _) Finset.univ_nonempty)
      (by simp)
  have hL' : ∑ j : Fin 2048, Real.exp (S (j.val / 256) (place j) - mR S 7)
      = ∑ k ∈ Finset.range (7 + 1), ∑ i, Real.exp (S k i - mR S 7) :=
    sum_blocks (fun k i => Real.exp (S k i - mR S 7))
  simp only [attnRow, fold_max_all, max_bot_left, ← EReal.coe_sub, Ideal.exp_coe, coe_sum, zero_add, hL',
    Ideal.div_coe (ne_of_gt hL), ← EReal.coe_mul]
  rw [EReal.coe_eq_coe_iff,
    sum_blocks (fun k i => Real.exp (S k i - mR S 7)
      * (1 / ∑ k ∈ Finset.range (7 + 1), ∑ i, Real.exp (S k i - mR S 7)) * W k i),
    Finset.sum_mul]
  refine Finset.sum_congr rfl fun k _ => ?_
  rw [Finset.sum_mul]
  refine Finset.sum_congr rfl fun i _ => ?_
  ring

end Cert.Attn

end
-- ==== Proof.Spec.lean ====
/-
  The specification: scaled dot-product attention, entry by entry, on the extended reals.

  For batch `b`, query row `q` and output column `d` the result is the softmax-weighted average
  (`Attn.attnRow`) of the value column `V (b, ·, d)` under the scores
  `score b q j = (∑ e, Q (b, q, e) * K (b, e, j)) * 2⁻⁵`, the factor being the float `0x3D000000`.
-/
import proofs.«126715_j90099823936228_2_alg».proof.Proof.Softmax
import Idealize.ShloMosaic.Lib.ValueIdx

open scoped BigOperators

noncomputable section

namespace Cert.Attn

open Idealize.ShloMosaic Idealize.ShloMosaic.ValueIdx

/-- The shapes of the three arguments and of the result. -/
abbrev SQ : Shape := ⟨3, ![8, 2048, 1024]⟩
abbrev SK : Shape := ⟨3, ![8, 1024, 2048]⟩

/-- The scaled score of query row `q` against key column `j` in batch `b`. -/
def score (Q : SQ.Idx → EReal) (K : SK.Idx → EReal) (b : Fin 8) (q : Fin 2048) (j : Fin 2048) : EReal :=
  (∑ e : Fin 1024, Q (ix3 b q e) * K (ix3 b e j)) * Ideal.ofBits .f32 0x3D000000#32

/-- Attention, entry by entry. -/
def G (Q : SQ.Idx → EReal) (K : SK.Idx → EReal) (V : SQ.Idx → EReal) : SQ.Idx → EReal :=
  fun i => attnRow (fun j => score Q K (i 0) (i 1) j) (fun j => V (ix3 (i 0) j (i 2)))

/-- Key column `256 n + j`: place `j` of block `n` (reduced modulo 2048, so that it is total in `n`). -/
def col (n : ℕ) (j : Fin 256) : Fin 2048 := ⟨(256 * n + j.val) % 2048, Nat.mod_lt _ (by norm_num)⟩

/-- The same entry computed block by block: the weighted sum over the normaliser after the eight key blocks. -/
def Gon (Q : SQ.Idx → EReal) (K : SK.Idx → EReal) (V : SQ.Idx → EReal) : SQ.Idx → EReal :=
  fun i => Ideal.div
    (state (fun n j => score Q K (i 0) (i 1) (col n j)) (fun n j => V (ix3 (i 0) (col n j) (i 2))) 7).2.2
    (state (fun n j => score Q K (i 0) (i 1) (col n j)) (fun n j => V (ix3 (i 0) (col n j) (i 2))) 7).2.1

end Cert.Attn

end
-- ==== Proof.Pieces.lean ====
/-
  What each control case of the body leaves in the three carried buffers and in the output block, as the body's
  own arithmetic of the blocks it loaded.

  The body keeps, per query row of the tile, the running maximum `m` (a 1024×1 column), the normaliser `l`
  (a 1024×1 column) and the weighted sum `a` (a 1024×1024 tile).  At the first key block it first stores
  `m = -∞`, `l = 0`, `a = 0` and reads them back; at every block it stores the new `m`, `l`, `a` computed from the
  old ones and the query, key and value blocks; at the last key block it also stores `a / l` into the output block.
  Every store covers its whole buffer, so what a buffer ends holding is the last store's value.
-/
import proofs.«126715_j90099823936228_2_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen Idealize.ShloMosaic Idealize.ShloMosaic.TcCoe Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The zero accumulator both matrix products start from. -/
abbrev zacc : FVec F S1024x1024 .f32 := constant S1024x1024 .f32 0x00000000#32

/-- A MIDDLE BLOCK leaves in the running maximum the larger of the old one and the block's row maxima, -/
theorem sB0 (c : Dev nD) (i : grid0.Coords) (a3 : Memref sig .tc .vmem S1x1024x1024 .f32) (h3 : a3.IsWhole) (a4 : Memref sig .tc .vmem S1x1024x256 .f32) (h4 : a4.IsWhole) (a5 : Memref sig .tc .vmem S1x256x1024 .f32) (h5 : a5.IsWhole) (a6 : Memref sig .tc .vmem S1x1024x1024 .f32) (h6 : a6.IsWhole) (a7 : Memref sig .tc .vmem S1024x1 .f32) (h7 : a7.IsWhole) (a8 : Memref sig .tc .vmem S1024x1 .f32) (h8 : a8.IsWhole) (a9 : Memref sig .tc .vmem S1024x1024 .f32) (h9 : a9.IsWhole) (hc0 : ¬cond0_0 i) (hc1 : ¬cond0_1 i) (x0 : Vec F S1x1024x1024 .f32) (x1 : Vec F S1x1024x256 .f32) (x2 : Vec F S1x256x1024 .f32) (xs0 : Vec F S1024x1 .f32) (xs1 : Vec F S1024x1 .f32) (xs2 : Vec F S1024x1024 .f32) :
    sout0_B_0 c i a3 h3 a4 h4 a5 h5 a6 h6 a7 h7 a8 h8 a9 h9 hc0 hc1 x0 x1 x2 xs0 xs1 xs2
      = k0_pay2 (k0_pay9 x0 x1 xs0) := by
  unfold sout0_B_0
  rw [View.read_writes_eq_canon _ _ _ (scover0_B_0 c i a3 h3 a4 h4 a5 h5 a6 h6 a7 h7 a8 h8 a9 h9 hc0 hc1 x0 x1 x2 xs0 xs1 xs2)]
  unfold kernelRun0_B
  dsimp only
  sl_unfold_words
  rw [View.canon_unit_zero hz2]
  simp only [View.readAt_eq_ld, h3.read_unread, h4.read_unread, h5.read_unread, h7.read_unread, h8.read_unread, h9.read_unread,
    View.ld_unit_zero (S := S1x1024x1024) hz3, View.ld_unit_zero (S := S1x1024x256) hz3, View.ld_unit_zero (S := S1x256x1024) hz3,
    View.ld_unit_zero (S := S1024x1) hz2, View.ld_unit_zero (S := S1024x1024) hz2]

/-- in the normaliser the rescaled old one plus the block's weights' row sums, -/
theorem sB1 (c : Dev nD) (i : grid0.Coords) (a3 : Memref sig .tc .vmem S1x1024x1024 .f32) (h3 : a3.IsWhole) (a4 : Memref sig .tc .vmem S1x1024x256 .f32) (h4 : a4.IsWhole) (a5 : Memref sig .tc .vmem S1x256x1024 .f32) (h5 : a5.IsWhole) (a6 : Memref sig .tc .vmem S1x1024x1024 .f32) (h6 : a6.IsWhole) (a7 : Memref sig .tc .vmem S1024x1 .f32) (h7 : a7.IsWhole) (a8 : Memref sig .tc .vmem S1024x1 .f32) (h8 : a8.IsWhole) (a9 : Memref sig .tc .vmem S1024x1024 .f32) (h9 : a9.IsWhole) (hc0 : ¬cond0_0 i) (hc1 : ¬cond0_1 i) (x0 : Vec F S1x1024x1024 .f32) (x1 : Vec F S1x1024x256 .f32) (x2 : Vec F S1x256x1024 .f32) (xs0 : Vec F S1024x1 .f32) (xs1 : Vec F S1024x1 .f32) (xs2 : Vec F S1024x1024 .f32) :
    sout0_B_1 c i a3 h3 a4 h4 a5 h5 a6 h6 a7 h7 a8 h8 a9 h9 hc0 hc1 x0 x1 x2 xs0 xs1 xs2
      = k0_pay12 x0 x1 xs0 xs1 := by
  unfold sout0_B_1
  rw [View.read_writes_eq_canon _ _ _ (scover0_B_1 c i a3 h3 a4 h4 a5 h5 a6 h6 a7 h7 a8 h8 a9 h9 hc0 hc1 x0 x1 x2 xs0 xs1 xs2)]
  unfold kernelRun0_B
  dsimp only
  sl_unfold_words
  rw [View.canon_unit_zero hz2]
  simp only [View.readAt_eq_ld, h3.read_unread, h4.read_unread, h5.read_unread, h7.read_unread, h8.read_unread, h9.read_unread,
    View.ld_unit_zero (S := S1x1024x1024) hz3, View.ld_unit_zero (S := S1x1024x256) hz3, View.ld_unit_zero (S := S1x256x1024) hz3,
    View.ld_unit_zero (S := S1024x1) hz2, View.ld_unit_zero (S := S1024x1024) hz2]

/-- and in the weighted sum the rescaled old one plus the weights' product with the value block. -/
theorem sB2 (c : Dev nD) (i : grid0.Coords) (a3 : Memref sig .tc .vmem S1x1024x1024 .f32) (h3 : a3.IsWhole) (a4 : Memref sig .tc .vmem S1x1024x256 .f32) (h4 : a4.IsWhole) (a5 : Memref sig .tc .vmem S1x256x1024 .f32) (h5 : a5.IsWhole) (a6 : Memref sig .tc .vmem S1x1024x1024 .f32) (h6 : a6.IsWhole) (a7 : Memref sig .tc .vmem S1024x1 .f32) (h7 : a7.IsWhole) (a8 : Memref sig .tc .vmem S1024x1 .f32) (h8 : a8.IsWhole) (a9 : Memref sig .tc .vmem S1024x1024 .f32) (h9 : a9.IsWhole) (hc0 : ¬cond0_0 i) (hc1 : ¬cond0_1 i) (x0 : Vec F S1x1024x1024 .f32) (x1 : Vec F S1x1024x256 .f32) (x2 : Vec F S1x256x1024 .f32) (xs0 : Vec F S1024x1 .f32) (xs1 : Vec F S1024x1 .f32) (xs2 : Vec F S1024x1024 .f32) :
    sout0_B_2 c i a3 h3 a4 h4 a5 h5 a6 h6 a7 h7 a8 h8 a9 h9 hc0 hc1 x0 x1 x2 xs0 xs1 xs2
      = k0_pay1 (k0_pay7 x2) (k0_pay10 x0 x1 xs0) (k0_pay13 x0 x1 xs0) zacc xs2 := by
  unfold sout0_B_2
  rw [View.read_writes_eq_canon _ _ _ (scover0_B_2 c i a3 h3 a4 h4 a5 h5 a6 h6 a7 h7 a8 h8 a9 h9 hc0 hc1 x0 x1 x2 xs0 xs1 xs2)]
  unfold kernelRun0_B
  dsimp only
  sl_unfold_words
  rw [View.canon_unit_zero hz2]
  simp only [View.readAt_eq_ld, h3.read_unread, h4.read_unread, h5.read_unread, h7.read_unread, h8.read_unread, h9.read_unread,
    View.ld_unit_zero (S := S1x1024x1024) hz3, View.ld_unit_zero (S := S1x1024x256) hz3, View.ld_unit_zero (S := S1x256x1024) hz3,
    View.ld_unit_zero (S := S1024x1) hz2, View.ld_unit_zero (S := S1024x1024) hz2]

/-- THE LAST BLOCK leaves the same three, -/
theorem sC0 (c : Dev nD) (i : grid0.Coords) (a3 : Memref sig .tc .vmem S1x1024x1024 .f32) (h3 : a3.IsWhole) (a4 : Memref sig .tc .vmem S1x1024x256 .f32) (h4 : a4.IsWhole) (a5 : Memref sig .tc .vmem S1x256x1024 .f32) (h5 : a5.IsWhole) (a6 : Memref sig .tc .vmem S1x1024x1024 .f32) (h6 : a6.IsWhole) (a7 : Memref sig .tc .vmem S1024x1 .f32) (h7 : a7.IsWhole) (a8 : Memref sig .tc .vmem S1024x1 .f32) (h8 : a8.IsWhole) (a9 : Memref sig .tc .vmem S1024x1024 .f32) (h9 : a9.IsWhole) (hc0 : ¬cond0_0 i) (hc1 : cond0_1 i) (x0 : Vec F S1x1024x1024 .f32) (x1 : Vec F S1x1024x256 .f32) (x2 : Vec F S1x256x1024 .f32) (xs0 : Vec F S1024x1 .f32) (xs1 : Vec F S1024x1 .f32) (xs2 : Vec F S1024x1024 .f32) :
    sout0_C_0 c i a3 h3 a4 h4 a5 h5 a6 h6 a7 h7 a8 h8 a9 h9 hc0 hc1 x0 x1 x2 xs0 xs1 xs2
      = k0_pay2 (k0_pay9 x0 x1 xs0) := by
  unfold sout0_C_0
  rw [View.read_writes_eq_canon _ _ _ (scover0_C_0 c i a3 h3 a4 h4 a5 h5 a6 h6 a7 h7 a8 h8 a9 h9 hc0 hc1 x0 x1 x2 xs0 xs1 xs2)]
  unfold kernelRun0_C
  dsimp only
  sl_unfold_words
  rw [View.canon_unit_zero hz2]
  simp only [View.readAt_eq_ld, h3.read_unread, h4.read_unread, h5.read_unread, h7.read_unread, h8.read_unread, h9.read_unread,
    View.ld_unit_zero (S := S1x1024x1024) hz3, View.ld_unit_zero (S := S1x1024x256) hz3, View.ld_unit_zero (S := S1x256x1024) hz3,
    View.ld_unit_zero (S := S1024x1) hz2, View.ld_unit_zero (S := S1024x1024) hz2]

/-- the normaliser, -/
theorem sC1 (c : Dev nD) (i : grid0.Coords) (a3 : Memref sig .tc .vmem S1x1024x1024 .f32) (h3 : a3.IsWhole) (a4 : Memref sig .tc .vmem S1x1024x256 .f32) (h4 : a4.IsWhole) (a5 : Memref sig .tc .vmem S1x256x1024 .f32) (h5 : a5.IsWhole) (a6 : Memref sig .tc .vmem S1x1024x1024 .f32) (h6 : a6.IsWhole) (a7 : Memref sig .tc .vmem S1024x1 .f32) (h7 : a7.IsWhole) (a8 : Memref sig .tc .vmem S1024x1 .f32) (h8 : a8.IsWhole) (a9 : Memref sig .tc .vmem S1024x1024 .f32) (h9 : a9.IsWhole) (hc0 : ¬cond0_0 i) (hc1 : cond0_1 i) (x0 : Vec F S1x1024x1024 .f32) (x1 : Vec F S1x1024x256 .f32) (x2 : Vec F S1x256x1024 .f32) (xs0 : Vec F S1024x1 .f32) (xs1 : Vec F S1024x1 .f32) (xs2 : Vec F S1024x1024 .f32) :
    sout0_C_1 c i a3 h3 a4 h4 a5 h5 a6 h6 a7 h7 a8 h8 a9 h9 hc0 hc1 x0 x1 x2 xs0 xs1 xs2
      = k0_pay12 x0 x1 xs0 xs1 := by
  unfold sout0_C_1
  rw [View.read_writes_eq_canon _ _ _ (scover0_C_1 c i a3 h3 a4 h4 a5 h5 a6 h6 a7 h7 a8 h8 a9 h9 hc0 hc1 x0 x1 x2 xs0 xs1 xs2)]
  unfold kernelRun0_C
  dsimp only
  sl_unfold_words
  rw [View.canon_unit_zero hz2]
  simp only [View.readAt_eq_ld, h3.read_unread, h4.read_unread, h5.read_unread, h7.read_unread, h8.read_unread, h9.read_unread,
    View.ld_unit_zero (S := S1x1024x1024) hz3, View.ld_unit_zero (S := S1x1024x256) hz3, View.ld_unit_zero (S := S1x256x1024) hz3,
    View.ld_unit_zero (S := S1024x1) hz2, View.ld_unit_zero (S := S1024x1024) hz2]

/-- the weighted sum, -/
theorem sC2 (c : Dev nD) (i : grid0.Coords) (a3 : Memref sig .tc .vmem S1x1024x1024 .f32) (h3 : a3.IsWhole) (a4 : Memref sig .tc .vmem S1x1024x256 .f32) (h4 : a4.IsWhole) (a5 : Memref sig .tc .vmem S1x256x1024 .f32) (h5 : a5.IsWhole) (a6 : Memref sig .tc .vmem S1x1024x1024 .f32) (h6 : a6.IsWhole) (a7 : Memref sig .tc .vmem S1024x1 .f32) (h7 : a7.IsWhole) (a8 : Memref sig .tc .vmem S1024x1 .f32) (h8 : a8.IsWhole) (a9 : Memref sig .tc .vmem S1024x1024 .f32) (h9 : a9.IsWhole) (hc0 : ¬cond0_0 i) (hc1 : cond0_1 i) (x0 : Vec F S1x1024x1024 .f32) (x1 : Vec F S1x1024x256 .f32) (x2 : Vec F S1x256x1024 .f32) (xs0 : Vec F S1024x1 .f32) (xs1 : Vec F S1024x1 .f32) (xs2 : Vec F S1024x1024 .f32) :
    sout0_C_2 c i a3 h3 a4 h4 a5 h5 a6 h6 a7 h7 a8 h8 a9 h9 hc0 hc1 x0 x1 x2 xs0 xs1 xs2
      = k0_pay1 (k0_pay7 x2) (k0_pay10 x0 x1 xs0) (k0_pay13 x0 x1 xs0) zacc xs2 := by
  unfold sout0_C_2
  rw [View.read_writes_eq_canon _ _ _ (scover0_C_2 c i a3 h3 a4 h4 a5 h5 a6 h6 a7 h7 a8 h8 a9 h9 hc0 hc1 x0 x1 x2 xs0 xs1 xs2)]
  unfold kernelRun0_C
  dsimp only
  sl_unfold_words
  rw [View.canon_unit_zero hz2]
  simp only [View.readAt_eq_ld, h3.read_unread, h4.read_unread, h5.read_unread, h7.read_unread, h8.read_unread, h9.read_unread,
    View.ld_unit_zero (S := S1x1024x1024) hz3, View.ld_unit_zero (S := S1x1024x256) hz3, View.ld_unit_zero (S := S1x256x1024) hz3,
    View.ld_unit_zero (S := S1024x1) hz2, View.ld_unit_zero (S := S1024x1024) hz2]

/-- and stores into the output block the new weighted sum over the new normaliser, both read back from their buffers. -/
theorem oC3 (c : Dev nD) (i : grid0.Coords) (a3 : Memref sig .tc .vmem S1x1024x1024 .f32) (h3 : a3.IsWhole) (a4 : Memref sig .tc .vmem S1x1024x256 .f32) (h4 : a4.IsWhole) (a5 : Memref sig .tc .vmem S1x256x1024 .f32) (h5 : a5.IsWhole) (a6 : Memref sig .tc .vmem S1x1024x1024 .f32) (h6 : a6.IsWhole) (a7 : Memref sig .tc .vmem S1024x1 .f32) (h7 : a7.IsWhole) (a8 : Memref sig .tc .vmem S1024x1 .f32) (h8 : a8.IsWhole) (a9 : Memref sig .tc .vmem S1024x1024 .f32) (h9 : a9.IsWhole) (hc0 : ¬cond0_0 i) (hc1 : cond0_1 i) (x0 : Vec F S1x1024x1024 .f32) (x1 : Vec F S1x1024x256 .f32) (x2 : Vec F S1x256x1024 .f32) (xs0 : Vec F S1024x1 .f32) (xs1 : Vec F S1024x1 .f32) (xs2 : Vec F S1024x1024 .f32) :
    out0_C_3 c i a3 h3 a4 h4 a5 h5 a6 h6 a7 h7 a8 h8 a9 h9 hc0 hc1 x0 x1 x2 xs0 xs1 xs2
      = k0_pay3 (k0_pay1 (k0_pay7 x2) (k0_pay10 x0 x1 xs0) (k0_pay13 x0 x1 xs0) zacc xs2) (k0_pay12 x0 x1 xs0 xs1) := by
  unfold out0_C_3
  rw [View.read_writes_eq_canon _ _ _ (cover0_C_3 c i a3 h3 a4 h4 a5 h5 a6 h6 a7 h7 a8 h8 a9 h9 hc0 hc1 x0 x1 x2 xs0 xs1 xs2)]
  unfold kernelRun0_C
  dsimp only
  sl_unfold_words
  rw [View.canon_unit_zero hz3]
  simp only [View.readCov_unit_zero (S := S1024x1024) _ hz2, View.readCov_unit_zero (S := S1024x1) _ hz2]
  simp only [View.readAt_eq_ld, h3.read_unread, h4.read_unread, h5.read_unread, h7.read_unread, h8.read_unread, h9.read_unread,
    View.ld_unit_zero (S := S1x1024x1024) hz3, View.ld_unit_zero (S := S1x1024x256) hz3, View.ld_unit_zero (S := S1x256x1024) hz3,
    View.ld_unit_zero (S := S1024x1) hz2, View.ld_unit_zero (S := S1024x1024) hz2]

/-- THE FIRST BLOCK does the same from the maximum `-∞`, -/
theorem sA0 (c : Dev nD) (i : grid0.Coords) (a3 : Memref sig .tc .vmem S1x1024x1024 .f32) (h3 : a3.IsWhole) (a4 : Memref sig .tc .vmem S1x1024x256 .f32) (h4 : a4.IsWhole) (a5 : Memref sig .tc .vmem S1x256x1024 .f32) (h5 : a5.IsWhole) (a6 : Memref sig .tc .vmem S1x1024x1024 .f32) (h6 : a6.IsWhole) (a7 : Memref sig .tc .vmem S1024x1 .f32) (h7 : a7.IsWhole) (a8 : Memref sig .tc .vmem S1024x1 .f32) (h8 : a8.IsWhole) (a9 : Memref sig .tc .vmem S1024x1024 .f32) (h9 : a9.IsWhole) (hc0 : cond0_0 i) (hc1 : ¬cond0_1 i) (x0 : Vec F S1x1024x1024 .f32) (x1 : Vec F S1x1024x256 .f32) (x2 : Vec F S1x256x1024 .f32) :
    sout0_A_0 c i a3 h3 a4 h4 a5 h5 a6 h6 a7 h7 a8 h8 a9 h9 hc0 hc1 x0 x1 x2
      = k0_pay2 (k0_pay9 x0 x1 k0_pay4) := by
  unfold sout0_A_0
  rw [View.read_writes_eq_canon _ _ _ (scover0_A_0 c i a3 h3 a4 h4 a5 h5 a6 h6 a7 h7 a8 h8 a9 h9 hc0 hc1 x0 x1 x2)]
  unfold kernelRun0_A
  dsimp only
  sl_unfold_words
  rw [View.canon_cons_unit_zero (S := S1024x1) hz2]
  simp only [View.readCov_unit_zero (S := S1024x1024) _ hz2, View.readCov_unit_zero (S := S1024x1) _ hz2]
  simp only [View.readAt_eq_ld, h3.read_unread, h4.read_unread, h5.read_unread, h7.read_unread, h8.read_unread, h9.read_unread,
    View.ld_unit_zero (S := S1x1024x1024) hz3, View.ld_unit_zero (S := S1x1024x256) hz3, View.ld_unit_zero (S := S1x256x1024) hz3,
    View.ld_unit_zero (S := S1024x1) hz2, View.ld_unit_zero (S := S1024x1024) hz2]

/-- the normaliser `0`, -/
theorem sA1 (c : Dev nD) (i : grid0.Coords) (a3 : Memref sig .tc .vmem S1x1024x1024 .f32) (h3 : a3.IsWhole) (a4 : Memref sig .tc .vmem S1x1024x256 .f32) (h4 : a4.IsWhole) (a5 : Memref sig .tc .vmem S1x256x1024 .f32) (h5 : a5.IsWhole) (a6 : Memref sig .tc .vmem S1x1024x1024 .f32) (h6 : a6.IsWhole) (a7 : Memref sig .tc .vmem S1024x1 .f32) (h7 : a7.IsWhole) (a8 : Memref sig .tc .vmem S1024x1 .f32) (h8 : a8.IsWhole) (a9 : Memref sig .tc .vmem S1024x1024 .f32) (h9 : a9.IsWhole) (hc0 : cond0_0 i) (hc1 : ¬cond0_1 i) (x0 : Vec F S1x1024x1024 .f32) (x1 : Vec F S1x1024x256 .f32) (x2 : Vec F S1x256x1024 .f32) :
    sout0_A_1 c i a3 h3 a4 h4 a5 h5 a6 h6 a7 h7 a8 h8 a9 h9 hc0 hc1 x0 x1 x2
      = k0_pay12 x0 x1 k0_pay4 k0_pay5 := by
  unfold sout0_A_1
  rw [View.read_writes_eq_canon _ _ _ (scover0_A_1 c i a3 h3 a4 h4 a5 h5 a6 h6 a7 h7 a8 h8 a9 h9 hc0 hc1 x0 x1 x2)]
  unfold kernelRun0_A
  dsimp only
  sl_unfold_words
  rw [View.canon_cons_unit_zero (S := S1024x1) hz2]
  simp only [View.readCov_unit_zero (S := S1024x1024) _ hz2, View.readCov_unit_zero (S := S1024x1) _ hz2]
  simp only [View.readAt_eq_ld, h3.read_unread, h4.read_unread, h5.read_unread, h7.read_unread, h8.read_unread, h9.read_unread,
    View.ld_unit_zero (S := S1x1024x1024) hz3, View.ld_unit_zero (S := S1x1024x256) hz3, View.ld_unit_zero (S := S1x256x1024) hz3,
    View.ld_unit_zero (S := S1024x1) hz2, View.ld_unit_zero (S := S1024x1024) hz2]

/-- and the weighted sum `0`, each stored first and read back. -/
theorem sA2 (c : Dev nD) (i : grid0.Coords) (a3 : Memref sig .tc .vmem S1x1024x1024 .f32) (h3 : a3.IsWhole) (a4 : Memref sig .tc .vmem S1x1024x256 .f32) (h4 : a4.IsWhole) (a5 : Memref sig .tc .vmem S1x256x1024 .f32) (h5 : a5.IsWhole) (a6 : Memref sig .tc .vmem S1x1024x1024 .f32) (h6 : a6.IsWhole) (a7 : Memref sig .tc .vmem S1024x1 .f32) (h7 : a7.IsWhole) (a8 : Memref sig .tc .vmem S1024x1 .f32) (h8 : a8.IsWhole) (a9 : Memref sig .tc .vmem S1024x1024 .f32) (h9 : a9.IsWhole) (hc0 : cond0_0 i) (hc1 : ¬cond0_1 i) (x0 : Vec F S1x1024x1024 .f32) (x1 : Vec F S1x1024x256 .f32) (x2 : Vec F S1x256x1024 .f32) :
    sout0_A_2 c i a3 h3 a4 h4 a5 h5 a6 h6 a7 h7 a8 h8 a9 h9 hc0 hc1 x0 x1 x2
      = k0_pay1 (k0_pay7 x2) (k0_pay10 x0 x1 k0_pay4) (k0_pay13 x0 x1 k0_pay4) zacc k0_pay6 := by
  unfold sout0_A_2
  rw [View.read_writes_eq_canon _ _ _ (scover0_A_2 c i a3 h3 a4 h4 a5 h5 a6 h6 a7 h7 a8 h8 a9 h9 hc0 hc1 x0 x1 x2)]
  unfold kernelRun0_A
  dsimp only
  sl_unfold_words
  rw [View.canon_cons_unit_zero (S := S1024x1024) hz2]
  simp only [View.readCov_unit_zero (S := S1024x1024) _ hz2, View.readCov_unit_zero (S := S1024x1) _ hz2]
  simp only [View.readAt_eq_ld, h3.read_unread, h4.read_unread, h5.read_unread, h7.read_unread, h8.read_unread, h9.read_unread,
    View.ld_unit_zero (S := S1x1024x1024) hz3, View.ld_unit_zero (S := S1x1024x256) hz3, View.ld_unit_zero (S := S1x256x1024) hz3,
    View.ld_unit_zero (S := S1024x1) hz2, View.ld_unit_zero (S := S1024x1024) hz2]

end Cert.KernelIdeal.Pieces

end
-- ==== Proof.LibMatProd.lean ====
/-
  GENERAL LEMMAS: a plain matrix product, written two ways, read at the ideal values.

  The product of an `R × K` matrix `X` with a `K × N` matrix `W` has entry `(r, q)` equal to
  `∑ k, X (r, k) · W (k, q)`, a sum of `K` products of extended reals (`matProd`).
  Both ways a program can write that product read, at `Ideal`, as this same sum:

  * a matrix unit's `matmul` accumulated into a zero splat (`matmul_zero_eq`), and
  * the host's `dot_general` (`dotGeneral_eq`),

  for ANY dimension record that contracts the left operand's axis 1 with the right operand's axis 0 and keeps
  the other two axes in order, whatever the operands' float formats, precision and schedule. That the record does
  so is stated as four equations of coordinate values (`Contracts`), which a literal record proves by unfolding
  (two by `DotDims.lhsIdx_val_of_single` / `rhsIdx_val_of_single`, two by `dif_neg` / `dif_pos` on its literal
  axis lists). Nothing here needs a finiteness hypothesis: the two sides are the same sum of the same products,
  term by term. Imports the library only.
-/
import Idealize.ShloMosaic.PureOps.Ideal.Laws
import Idealize.ShloMosaic.Lib.ValueIdx

noncomputable section

open scoped BigOperators

namespace Cert.Linear

open Idealize.ShloMosaic Idealize.ShloMosaic.ValueIdx

/-- The shape of a matrix of `a` rows and `b` columns. -/
abbrev Mat (a b : Nat) : Shape := ⟨2, ![a, b]⟩

/-- `X · W`, entry by entry: row `r` of `X` against column `q` of `W`. -/
def matProd {R K N : Nat} (X : (Mat R K).Idx → EReal) (W : (Mat K N).Idx → EReal) : (Mat R N).Idx → EReal :=
  fun i => ∑ k : Fin K, X (ix2 (n0 := R) (n1 := K) (i 0) k) * W (ix2 (n0 := K) (n1 := N) k (i 1))

/-- A dimension record for `[R,K] × [K,N] → [R,N]` that contracts the left operand's columns with the right
    operand's rows: one contracted axis of extent `K`, and at result index `i` and contraction index `q` the left
    operand is read at `(i 0, q)` and the right one at `(q, i 1)`. -/
structure Contracts {R K N : Nat} (d : DotDims (Mat R K) (Mat K N) (Mat R N)) : Prop where
  rank : d.contr.rank = 1
  size : d.contr.size ⟨0, by omega⟩ = K
  lhs0 : ∀ (i : (Mat R N).Idx) (q : d.contr.Idx), (d.lhsIdx i q 0).val = (i 0).val
  lhs1 : ∀ (i : (Mat R N).Idx) (q : d.contr.Idx), (d.lhsIdx i q 1).val = (q ⟨0, by omega⟩).val
  rhs0 : ∀ (i : (Mat R N).Idx) (q : d.contr.Idx), (d.rhsIdx i q 0).val = (q ⟨0, by omega⟩).val
  rhs1 : ∀ (i : (Mat R N).Idx) (q : d.contr.Idx), (d.rhsIdx i q 1).val = (i 1).val

/-- The sum over such a record's contraction index of the operands' products is the sum over `k < K` of
    `X (i 0, k) · W (k, i 1)`: the contraction index is its one coordinate. -/
theorem contraction_sum {R K N : Nat} {d : DotDims (Mat R K) (Mat K N) (Mat R N)} (h : Contracts d)
    (X : (Mat R K).Idx → EReal) (W : (Mat K N).Idx → EReal) (i : (Mat R N).Idx) :
    ∑ q : d.contr.Idx, X (d.lhsIdx i q) * W (d.rhsIdx i q) = matProd X W i := by
  unfold matProd
  rw [← Equiv.sum_comp (contrEquiv1 d K h.rank h.size).symm]
  refine Finset.sum_congr rfl fun k _ => ?_
  have hk := contrEquiv1_symm_val d K h.rank h.size k
  have el : d.lhsIdx i ((contrEquiv1 d K h.rank h.size).symm k) = ix2 (n0 := R) (n1 := K) (i 0) k :=
    funext fun a => Fin.ext (by
      match a with
      | ⟨0, _⟩ => exact h.lhs0 _ _
      | ⟨1, _⟩ => exact (h.lhs1 _ _).trans hk)
  have er : d.rhsIdx i ((contrEquiv1 d K h.rank h.size).symm k) = ix2 (n0 := K) (n1 := N) k (i 1) :=
    funext fun a => Fin.ext (by
      match a with
      | ⟨0, _⟩ => exact (h.rhs0 _ _).trans hk
      | ⟨1, _⟩ => exact h.rhs1 _ _)
  rw [el, er]

/-- A matrix unit's product accumulated into the zero splat is `X · W`, whatever the operands' float formats. -/
theorem matmul_zero_eq {R K N : Nat} {φ₁ φ₂ : FTy} {d : DotDims (Mat R K) (Mat K N) (Mat R N)} (h : Contracts d)
    (prec : Option ContractPrecision) (X : FVec Ideal (Mat R K) φ₁) (W : FVec Ideal (Mat K N) φ₂) :
    FloatOps.matmul d prec X W (constant (F := Ideal) (Mat R N) .f32 0x00000000#32) = matProd X W :=
  funext fun i => (Ideal.matmul_constant_zero_apply d prec X W i).trans (contraction_sum h X W i)

/-- The host's `dot_general` is `X · W`, whatever its precision and schedule. -/
theorem dotGeneral_eq {R K N : Nat} {φ₁ φ₂ : FTy} {d : DotDims (Mat R K) (Mat K N) (Mat R N)} (h : Contracts d)
    (prec : Option ContractPrecision) (sched : HostSchedule) (X : FVec Ideal (Mat R K) φ₁) (W : FVec Ideal (Mat K N) φ₂) :
    FloatOps.dotGeneral d prec sched X W = matProd X W :=
  funext fun i => (Ideal.dotGeneral_apply d prec sched X W i).trans (contraction_sum h X W i)

end Cert.Linear

end
-- ==== Proof.LibKeepdims.lean ====
/-
  Layout operations of a `keepdims` reduction, read at an index given by coordinates, and a rank-2 float sum along one
  axis read at the extended reals.

  A vector of `a` entries viewed as an `a × 1` column holds entry `i` at `(i, 0)`; an `a × 1` column broadcast to
  `a × b` holds, at `(p, c)`, the column's entry `(p, 0)`; the sum of an `a × b` array along its second axis is, at
  row `r`, the sum over the `b` columns of the entries of that row, and along its first axis, at column `c`, the sum
  over the `a` rows of the entries of that column.  Indices are written with the literal-size constructors
  `ix1`, `ix2`, so that each lemma applies to a printed operation by unification.
-/
import Idealize.ShloMosaic.Lib.Pipeline.Value
import Idealize.ShloMosaic.Lib.ValueIdx
import Idealize.ShloMosaic.PureOps.Ideal.Laws

open scoped BigOperators

namespace Cert.LibKeepdims

open Idealize.ShloMosaic Idealize.ShloMosaic.ValueIdx

variable {α : Type}

/-- A vector cast to a column, `[a] → [a, 1]`, reads entry `i` at `(i, 0)`: both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column broadcast along its unit axis, `[a, 1] → [a, b]`, reads at `(p, c)` the column's entry `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

variable {φ : FTy}

/-- ROW SUMS. At the extended reals the float sum of an `a × b` array along its second axis is, at row `r`, the sum
    over the columns `c` of the entries `(r, c)`. -/
theorem multiReduction_add_rows {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ c : Fin b, src (ix2 r c) := by
  refine (Ideal.multiReduction_add_single src acc h hφ hacc (ix1 r)).trans ?_
  refine Finset.sum_congr rfl fun c _ => congrArg src (funext fun ax => Fin.ext ?_)
  rw [h.lift_val]
  unfold Shape.Reduces.liftVal
  match ax with
  | ⟨0, _⟩ => rfl
  | ⟨1, _⟩ => rfl

/-- COLUMN SUMS. Along its first axis the sum is, at column `c`, the sum over the rows `r` of the entries `(r, c)`. -/
theorem multiReduction_add_cols {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (c : Fin b) :
    multiReduction .add [0] ⟨1, ![b]⟩ src acc h hφ hacc (ix1 c) = ∑ r : Fin a, src (ix2 r c) := by
  refine (Ideal.multiReduction_add_single src acc h hφ hacc (ix1 c)).trans ?_
  refine Finset.sum_congr rfl fun r _ => congrArg src (funext fun ax => Fin.ext ?_)
  rw [h.lift_val]
  unfold Shape.Reduces.liftVal
  match ax with
  | ⟨0, _⟩ => rfl
  | ⟨1, _⟩ => rfl

end Cert.LibKeepdims
-- ==== Proof.LibRowMax.lean ====
/-
  Row maxima of a rank-2 float array, read at the extended reals with indices given by coordinates.

  The maximum of an `a × b` array along its second axis, taken from a starting value, is at row `r` the maximum of
  that value and the `b` entries `(r, c)` of the row — written here as the fold of `max` from the starting value
  over the columns `c`, for a vector reduction (whose starting value is its accumulator word) and for a host
  reduction (whose starting value is its scalar operand).  Indices are written with the literal-size constructors
  `ix1`, `ix2`, so that each lemma applies to a printed operation by unification.
-/
import Idealize.ShloMosaic.Lib.ValueIdx
import Idealize.ShloMosaic.PureOps.Ideal.Laws

namespace Cert.LibRowMax

open Idealize.ShloMosaic Idealize.ShloMosaic.ValueIdx

variable {φ : FTy}

/-- Inserting column `c` into the rank-1 index `r` at the second axis gives the index `(r, c)`. -/
theorem lift_rows {a b : ℕ} (h : (⟨2, ![a, b]⟩ : Shape).Reduces [1] ⟨1, ![a]⟩) (r : Fin a) (c : Fin b) :
    h.lift (ix1 r) c = ix2 r c :=
  funext fun ax => Fin.ext (by
    refine (h.lift_val (ix1 r) c ax).trans ?_
    unfold Shape.Reduces.liftVal
    match ax with
    | ⟨0, _⟩ => rfl
    | ⟨1, _⟩ => rfl)

/-- ROW MAXIMA of a vector reduction: at row `r`, the fold of `max` from the accumulator's value over the columns. -/
theorem multiReduction_maximumf_rows {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (r : Fin a) :
    multiReduction .maximumf [1] ⟨1, ![a]⟩ src acc h hφ hacc (ix1 r)
      = (Finset.univ : Finset (Fin b)).fold max (Ideal.ofBits φ acc) (fun c => src (ix2 r c)) := by
  refine (Ideal.multiReduction_maximumf_single src acc h hφ hacc (ix1 r)).trans ?_
  exact congrArg (fun f => (Finset.univ : Finset (Fin b)).fold max (Ideal.ofBits φ acc) f)
    (funext fun c => congrArg src (lift_rows h r c))

/-- ROW MAXIMA of a host reduction with a `maximum` body: at row `r`, the fold of `max` from the initial value over
    the columns. -/
theorem hostReduce_maximumf_rows {a b : ℕ} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduce (FloatOps.maximumf (F := Ideal) (φ := φ)) x init h' hu (ix1 r)
      = (Finset.univ : Finset (Fin b)).fold max (init (Shape.Idx.first hu)) (fun c => x (ix2 r c)) := by
  refine (Host.reduce_eq_fold_single (FloatOps.maximumf (F := Ideal) (φ := φ)) x init h' h hu (ix1 r)).trans ?_
  exact congrArg (fun f => (Finset.univ : Finset (Fin b)).fold max (init (Shape.Idx.first hu)) f)
    (funext fun c => congrArg x (lift_rows h r c))

end Cert.LibRowMax
-- ==== Proof.PayAt.lean ====
/-
  The body's arithmetic read entry by entry on the extended reals.

  For a query tile `x0` (1×1024×1024), a key block `x1` (1×1024×256) and a value block `x2` (1×256×1024), row `r` of
  the tile and column `i` of the block:
    the block's score is `(∑ e, x0 (0, r, e) * x1 (0, e, i)) * 2⁻⁵`;
    the new maximum is the larger of the old one and the row's block maximum (taken from `-∞`);
    the rescaling factor is `exp (m_old - m_new)`, the weights `exp (score - m_new)`;
    the new normaliser is `factor * l_old + ∑ i, weight`, the new weighted sum
    `factor * a_old + ∑ i, weight * x2 (0, i, d)`; and the output is `a / l`.
  A change of float format is the identity here, a matrix product into the zero accumulator the plain sum of products.
-/
import proofs.«126715_j90099823936228_2_alg».proof.Proof.Gen.KernelIdeal.Skeleton
import proofs.«126715_j90099823936228_2_alg».proof.Proof.LibMatProd
import proofs.«126715_j90099823936228_2_alg».proof.Proof.LibKeepdims
import proofs.«126715_j90099823936228_2_alg».proof.Proof.LibRowMax
import proofs.«126715_j90099823936228_2_alg».proof.Proof.Softmax
import Idealize.ShloMosaic.Lib.ValueLayout
import Idealize.ShloMosaic.Lib.Pipeline.Value

open scoped BigOperators

noncomputable section

namespace Cert.KernelIdeal.PayAt

open Cert.KernelIdeal Cert.KernelIdeal.Gen Idealize.ShloMosaic Idealize.ShloMosaic.ValueIdx Cert.Linear

/-- The scores' product contracts the query tile's columns with the key block's rows. -/
theorem contracts_qk : Contracts (R := 1024) (K := 1024) (N := 256) dot_S1024x1024_S1024x256_S1024x256_1_0_0_1_n_n where
  rank := rfl
  size := rfl
  lhs0 i q := by
    unfold DotDims.lhsIdx
    rw [dif_neg (show ¬(0 : Fin S1024x1024.rank) ∈ dot_S1024x1024_S1024x256_S1024x256_1_0_0_1_n_n.lhsBatch by decide),
      dif_pos (show (0 : Fin S1024x1024.rank) ∈ dot_S1024x1024_S1024x256_S1024x256_1_0_0_1_n_n.lhsNonContracting by decide)]
    rfl
  lhs1 i q := dot_S1024x1024_S1024x256_S1024x256_1_0_0_1_n_n.lhsIdx_val_of_single rfl i q
  rhs0 i q := dot_S1024x1024_S1024x256_S1024x256_1_0_0_1_n_n.rhsIdx_val_of_single rfl i q
  rhs1 i q := by
    unfold DotDims.rhsIdx
    rw [dif_neg (show ¬(1 : Fin S1024x256.rank) ∈ dot_S1024x1024_S1024x256_S1024x256_1_0_0_1_n_n.rhsBatch by decide),
      dif_pos (show (1 : Fin S1024x256.rank) ∈ dot_S1024x1024_S1024x256_S1024x256_1_0_0_1_n_n.rhsNonContracting by decide)]
    rfl

/-- The weighted sum's product contracts the weights' columns with the value block's rows. -/
theorem contracts_pv : Contracts (R := 1024) (K := 256) (N := 1024) dot_S1024x256_S256x1024_S1024x1024_1_0_0_1_n_n where
  rank := rfl
  size := rfl
  lhs0 i q := by
    unfold DotDims.lhsIdx
    rw [dif_neg (show ¬(0 : Fin S1024x256.rank) ∈ dot_S1024x256_S256x1024_S1024x1024_1_0_0_1_n_n.lhsBatch by decide),
      dif_pos (show (0 : Fin S1024x256.rank) ∈ dot_S1024x256_S256x1024_S1024x1024_1_0_0_1_n_n.lhsNonContracting by decide)]
    rfl
  lhs1 i q := dot_S1024x256_S256x1024_S1024x1024_1_0_0_1_n_n.lhsIdx_val_of_single rfl i q
  rhs0 i q := dot_S1024x256_S256x1024_S1024x1024_1_0_0_1_n_n.rhsIdx_val_of_single rfl i q
  rhs1 i q := by
    unfold DotDims.rhsIdx
    rw [dif_neg (show ¬(1 : Fin S256x1024.rank) ∈ dot_S1024x256_S256x1024_S1024x1024_1_0_0_1_n_n.rhsBatch by decide),
      dif_pos (show (1 : Fin S256x1024.rank) ∈ dot_S1024x256_S256x1024_S1024x1024_1_0_0_1_n_n.rhsNonContracting by decide)]
    rfl

/-- The float `-∞`. -/
theorem ofBits_neg_inf : Ideal.ofBits .f32 0xFF800000#32 = (⊥ : EReal) := by
  simp [Ideal.ofBits, Ideal.ieee]

/-- THE SCORES of a block. -/
theorem score_at (x0 : Vec Ideal S1x1024x1024 .f32) (x1 : Vec Ideal S1x1024x256 .f32) (r : Fin 1024) (i : Fin 256) :
    k0_pay8 x0 x1 (ix2 r i)
      = (∑ e : Fin 1024, x0 (ix3 (0 : Fin 1) r e) * x1 (ix3 (0 : Fin 1) e i)) * Ideal.ofBits .f32 0x3D000000#32 := by
  have h := congrFun (matmul_zero_eq contracts_qk none
    (truncf .bf16 (shapeCast S1024x1024 x0 shapeCasts_S1x1024x1024_S1024x1024) bitsLt_bf16_f32 : FVec Ideal S1024x1024 .bf16)
    (truncf .bf16 (shapeCast S1024x256 x1 shapeCasts_S1x1024x256_S1024x256) bitsLt_bf16_f32 : FVec Ideal S1024x256 .bf16)) (ix2 r i)
  refine (congrArg (· * Ideal.ofBits .f32 0x3D000000#32) h).trans ?_
  unfold matProd
  refine congrArg (· * Ideal.ofBits .f32 0x3D000000#32) (Finset.sum_congr rfl fun e _ => ?_)
  show shapeCast S1024x1024 x0 shapeCasts_S1x1024x1024_S1024x1024 (ix2 r e)
      * shapeCast S1024x256 x1 shapeCasts_S1x1024x256_S1024x256 (ix2 e i) = _
  rw [shapeCast_1ab_ab_apply, shapeCast_1ab_ab_apply]

/-- THE NEW MAXIMUM of row `r`: the larger of the old one and the block's scores' maximum, taken from `-∞`. -/
theorem newmax_at (x0 : Vec Ideal S1x1024x1024 .f32) (x1 : Vec Ideal S1x1024x256 .f32) (xs0 : Vec Ideal S1024x1 .f32)
    (r : Fin 1024) :
    k0_pay9 x0 x1 xs0 (ix2 r (0 : Fin 1))
      = max (xs0 (ix2 r (0 : Fin 1))) ((Finset.univ : Finset (Fin 256)).fold max ⊥ (fun j => k0_pay8 x0 x1 (ix2 r j))) := by
  unfold k0_pay9
  rw [maximumf_apply, Cert.LibKeepdims.shapeCast_a_a1_apply]
  refine congrArg (max _) ((Cert.LibRowMax.multiReduction_maximumf_rows (k0_pay8 x0 x1) _ _ _ _ r).trans ?_)
  rw [ofBits_neg_inf]

/-- THE RESCALING FACTOR of row `r`. -/
theorem factor_at (x0 : Vec Ideal S1x1024x1024 .f32) (x1 : Vec Ideal S1x1024x256 .f32) (xs0 : Vec Ideal S1024x1 .f32)
    (r : Fin 1024) :
    k0_pay10 x0 x1 xs0 (ix2 r (0 : Fin 1))
      = Ideal.exp (xs0 (ix2 r (0 : Fin 1)) - k0_pay9 x0 x1 xs0 (ix2 r (0 : Fin 1))) := rfl

/-- THE WEIGHTS of row `r`. -/
theorem weight_at (x0 : Vec Ideal S1x1024x1024 .f32) (x1 : Vec Ideal S1x1024x256 .f32) (xs0 : Vec Ideal S1024x1 .f32)
    (r : Fin 1024) (j : Fin 256) :
    k0_pay11 x0 x1 xs0 (ix2 r j)
      = Ideal.exp (k0_pay8 x0 x1 (ix2 r j) - k0_pay9 x0 x1 xs0 (ix2 r (0 : Fin 1))) := by
  unfold k0_pay11
  show Ideal.exp (k0_pay8 x0 x1 (ix2 r j) - broadcastTo S1024x256 (k0_pay9 x0 x1 xs0) broadcasts_S1024x1_S1024x256 (ix2 r j)) = _
  rw [Cert.LibKeepdims.broadcastTo_a1_ab_apply]

/-- THE NEW NORMALISER of row `r`. -/
theorem newl_at (x0 : Vec Ideal S1x1024x1024 .f32) (x1 : Vec Ideal S1x1024x256 .f32) (xs0 xs1 : Vec Ideal S1024x1 .f32)
    (r : Fin 1024) :
    k0_pay12 x0 x1 xs0 xs1 (ix2 r (0 : Fin 1))
      = k0_pay10 x0 x1 xs0 (ix2 r (0 : Fin 1)) * xs1 (ix2 r (0 : Fin 1)) + ∑ j : Fin 256, k0_pay11 x0 x1 xs0 (ix2 r j) := by
  unfold k0_pay12
  rw [shapeCast_self, addf_apply, mulf_apply, Cert.LibKeepdims.shapeCast_a_a1_apply]
  exact congrArg (_ + ·) (Cert.LibKeepdims.multiReduction_add_rows (k0_pay11 x0 x1 xs0) _ _ _ _ r)

/-- THE NEW WEIGHTED SUM at `(r, d)`. -/
theorem newacc_at (x0 : Vec Ideal S1x1024x1024 .f32) (x1 : Vec Ideal S1x1024x256 .f32) (x2 : Vec Ideal S1x256x1024 .f32)
    (xs0 : Vec Ideal S1024x1 .f32) (xs2 : Vec Ideal S1024x1024 .f32) (r d : Fin 1024) :
    k0_pay1 (k0_pay7 x2) (k0_pay10 x0 x1 xs0) (k0_pay13 x0 x1 xs0) (constant S1024x1024 .f32 0x00000000#32) xs2 (ix2 r d)
      = k0_pay10 x0 x1 xs0 (ix2 r (0 : Fin 1)) * xs2 (ix2 r d)
        + ∑ j : Fin 256, k0_pay11 x0 x1 xs0 (ix2 r j) * x2 (ix3 (0 : Fin 1) j d) := by
  have h := congrFun (matmul_zero_eq contracts_pv none (k0_pay13 x0 x1 xs0) (k0_pay7 x2)) (ix2 r d)
  unfold k0_pay1
  rw [shapeCast_self, addf_apply, mulf_apply, Cert.LibKeepdims.broadcastTo_a1_ab_apply]
  refine congrArg (_ + ·) (h.trans ?_)
  unfold matProd
  refine Finset.sum_congr rfl fun j _ => ?_
  show k0_pay11 x0 x1 xs0 (ix2 r j) * shapeCast S256x1024 x2 shapeCasts_S1x256x1024_S256x1024 (ix2 j d) = _
  rw [shapeCast_1ab_ab_apply]

/-- THE OUTPUT at `(r, d)`: the weighted sum over the normaliser. -/
theorem out_at (a : Vec Ideal S1024x1024 .f32) (l : Vec Ideal S1024x1 .f32) (r d : Fin 1024) :
    k0_pay3 a l (ix3 (0 : Fin 1) r d) = Ideal.div (a (ix2 r d)) (l (ix2 r (0 : Fin 1))) := by
  unfold k0_pay3
  rw [shapeCast_ab_1ab_apply, divf_apply, Cert.LibKeepdims.broadcastTo_a1_ab_apply]

/-- What the first block stores before it starts: the maximum `-∞`, -/
theorem init_m_at (r : Fin 1024) : (k0_pay4 (F := Ideal)) (ix2 r (0 : Fin 1)) = ⊥ := by
  unfold k0_pay4
  rw [shapeCast_self, broadcast_apply]
  exact ofBits_neg_inf
/-- the normaliser `0`, -/
theorem init_l_at (r : Fin 1024) : (k0_pay5 (F := Ideal)) (ix2 r (0 : Fin 1)) = 0 := by
  unfold k0_pay5
  rw [shapeCast_self, broadcast_apply]
  exact Ideal.ofBits_zero_f32
/-- and the weighted sum `0`. -/
theorem init_a_at (r d : Fin 1024) : (k0_pay6 (F := Ideal)) (ix2 r d) = 0 := by
  unfold k0_pay6
  rw [shapeCast_self, broadcast_apply]
  exact Ideal.ofBits_zero_f32

/-- ONE BLOCK IS ONE STEP of the online form, at row `r` and output column `d`: if the block's scores on row `r` are `S`,
    the value block's column `d` is `W`, and the three buffers hold the triple `st` there, then the three new values
    there are `Attn.step S W st`. -/
theorem step_at (x0 : Vec Ideal S1x1024x1024 .f32) (x1 : Vec Ideal S1x1024x256 .f32) (x2 : Vec Ideal S1x256x1024 .f32)
    (xs0 xs1 : Vec Ideal S1024x1 .f32) (xs2 : Vec Ideal S1024x1024 .f32) (r d : Fin 1024)
    (S W : Fin 256 → EReal) (st : EReal × EReal × EReal)
    (hS : ∀ j, k0_pay8 x0 x1 (ix2 r j) = S j) (hW : ∀ j, x2 (ix3 (0 : Fin 1) j d) = W j)
    (h0 : xs0 (ix2 r (0 : Fin 1)) = st.1) (h1 : xs1 (ix2 r (0 : Fin 1)) = st.2.1) (h2 : xs2 (ix2 r d) = st.2.2) :
    (k0_pay2 (k0_pay9 x0 x1 xs0) (ix2 r (0 : Fin 1)), k0_pay12 x0 x1 xs0 xs1 (ix2 r (0 : Fin 1)),
      k0_pay1 (k0_pay7 x2) (k0_pay10 x0 x1 xs0) (k0_pay13 x0 x1 xs0) (constant S1024x1024 .f32 0x00000000#32) xs2 (ix2 r d))
      = Cert.Attn.step S W st := by
  have hm : k0_pay9 x0 x1 xs0 (ix2 r (0 : Fin 1)) = max st.1 ((Finset.univ : Finset (Fin 256)).fold max ⊥ S) := by
    rw [newmax_at, h0]; simp only [hS]
  have hf : k0_pay10 x0 x1 xs0 (ix2 r (0 : Fin 1))
      = Ideal.exp (st.1 - max st.1 ((Finset.univ : Finset (Fin 256)).fold max ⊥ S)) := by
    rw [factor_at, h0, hm]
  have hw : ∀ j, k0_pay11 x0 x1 xs0 (ix2 r j)
      = Ideal.exp (S j - max st.1 ((Finset.univ : Finset (Fin 256)).fold max ⊥ S)) := fun j => by
    rw [weight_at, hS, hm]
  unfold Cert.Attn.step
  refine Prod.ext ?_ (Prod.ext ?_ ?_)
  · show k0_pay2 (k0_pay9 x0 x1 xs0) (ix2 r (0 : Fin 1)) = _
    unfold k0_pay2
    rw [shapeCast_self]
    exact hm
  · show k0_pay12 x0 x1 xs0 xs1 (ix2 r (0 : Fin 1)) = _
    rw [newl_at, hf, h1]
    simp only [hw]
  · show k0_pay1 (k0_pay7 x2) (k0_pay10 x0 x1 xs0) (k0_pay13 x0 x1 xs0) (constant S1024x1024 .f32 0x00000000#32) xs2 (ix2 r d) = _
    rw [newacc_at, hf, h2]
    simp only [hw, hW]

end Cert.KernelIdeal.PayAt

end
-- ==== Proof.Blocks.lean ====
/-
  How the windows' blocks sit in the arrays.

  The grid has 8 x 2 x 8 points, run row-major: point t is batch t / 16, query tile t / 8 % 2, key block t % 8.
  At point t the queries' block is rows 1024 * (t / 8 % 2) ... of batch t / 16, whole in the feature axis; the keys'
  block is columns 256 * (t % 8) ... of that batch, whole in the feature axis; the values' block is rows
  256 * (t % 8) ...; the output's block is where the queries' block is, and is written back at the last key block
  only (t % 8 = 7).  Every index of the output array lies in the block of exactly such a point.
-/
import proofs.«126715_j90099823936228_2_alg».proof.Proof.Gen.KernelIdeal.Value
import Idealize.ShloMosaic.Lib.Pipeline.Value
import Idealize.ShloMosaic.Lib.ValueIdx

noncomputable section

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

variable {F : FTy → Type} [FloatOps F]
variable (m : (ℓ : Loc nD τ sig) → Buf (Elt F) ℓ)

/-! ## The index maps, decided over the grid -/

theorem idx_q : ∀ t : Fin cfg0.N, win0_0.index t (0 : Fin 3) = t.val / 16 ∧ win0_0.index t (1 : Fin 3) = t.val / 8 % 2
    ∧ win0_0.index t (2 : Fin 3) = 0 :=
  (by decide +kernel : ∀ t : Fin grid0.N, _)

theorem idx_k : ∀ t : Fin cfg0.N, win0_1.index t (0 : Fin 3) = t.val / 16 ∧ win0_1.index t (1 : Fin 3) = 0
    ∧ win0_1.index t (2 : Fin 3) = t.val % 8 :=
  (by decide +kernel : ∀ t : Fin grid0.N, _)

theorem idx_v : ∀ t : Fin cfg0.N, win0_2.index t (0 : Fin 3) = t.val / 16 ∧ win0_2.index t (1 : Fin 3) = t.val % 8
    ∧ win0_2.index t (2 : Fin 3) = 0 :=
  (by decide +kernel : ∀ t : Fin grid0.N, _)

theorem idx_o : ∀ t : Fin cfg0.N, win0_3.index t (0 : Fin 3) = t.val / 16 ∧ win0_3.index t (1 : Fin 3) = t.val / 8 % 2
    ∧ win0_3.index t (2 : Fin 3) = 0 :=
  (by decide +kernel : ∀ t : Fin grid0.N, _)

/-! ## A point's coordinates in the arrays -/

theorem lt_N (t : Fin cfg0.N) : t.val < 128 := lt_of_lt_of_eq t.isLt (show cfg0.N = 128 from N_0)

/-- The batch of point t. -/
def bOf (t : Fin cfg0.N) : Fin 8 := ⟨t.val / 16, by have := lt_N t; omega⟩
/-- Row r of point t's query tile, as a row of the array. -/
def qRow (t : Fin cfg0.N) (r : Fin 1024) : Fin 2048 := ⟨1024 * (t.val / 8 % 2) + r.val, by have := r.isLt; omega⟩
/-- Column j of point t's key block, as a key of the array. -/
def kCol (t : Fin cfg0.N) (j : Fin 256) : Fin 2048 := ⟨256 * (t.val % 8) + j.val, by have := j.isLt; omega⟩

/-! ## The input blocks, read at coordinates -/

/-- The queries' block at point t, at row r and feature e, is the array at batch t / 16, row 1024 * (t / 8 % 2) + r. -/
theorem q_blk (c : Dev nD) (t : Fin cfg0.N) (r e : Fin 1024) :
    (iblk m c 0 t : Vec F S1x1024x1024 .f32) (ix3 (0 : Fin 1) r e)
      = m ((c : Thread nD τ).loc main_arg0) (ix3 (bOf t) (qRow t r) e) := by
  obtain ⟨e0, e1, e2⟩ := idx_q t
  unfold iblk
  rw [View.read_apply]
  show V m c main_arg0 _ = m (c.tc.loc main_arg0) _
  unfold V
  congr 1
  funext a
  apply Fin.ext
  match a with
  | ⟨0, _⟩ => show win0_0.index t (0 : Fin 3) * 1 + 1 * 0 = t.val / 16; rw [e0]; omega
  | ⟨1, _⟩ => show win0_0.index t (1 : Fin 3) * 1024 + 1 * r.val = 1024 * (t.val / 8 % 2) + r.val; rw [e1]; omega
  | ⟨2, _⟩ => show win0_0.index t (2 : Fin 3) * 1024 + 1 * e.val = e.val; rw [e2]; omega

/-- The keys' block at point t, at feature e and column j, is the array at batch t / 16, key 256 * (t % 8) + j. -/
theorem k_blk (c : Dev nD) (t : Fin cfg0.N) (e : Fin 1024) (j : Fin 256) :
    (iblk m c 1 t : Vec F S1x1024x256 .f32) (ix3 (0 : Fin 1) e j)
      = m ((c : Thread nD τ).loc main_arg1) (ix3 (bOf t) e (kCol t j)) := by
  obtain ⟨e0, e1, e2⟩ := idx_k t
  unfold iblk
  rw [View.read_apply]
  show V m c main_arg1 _ = m (c.tc.loc main_arg1) _
  unfold V
  congr 1
  funext a
  apply Fin.ext
  match a with
  | ⟨0, _⟩ => show win0_1.index t (0 : Fin 3) * 1 + 1 * 0 = t.val / 16; rw [e0]; omega
  | ⟨1, _⟩ => show win0_1.index t (1 : Fin 3) * 1024 + 1 * e.val = e.val; rw [e1]; omega
  | ⟨2, _⟩ => show win0_1.index t (2 : Fin 3) * 256 + 1 * j.val = 256 * (t.val % 8) + j.val; rw [e2]; omega

/-- The values' block at point t, at row j and column d, is the array at batch t / 16, key 256 * (t % 8) + j. -/
theorem v_blk (c : Dev nD) (t : Fin cfg0.N) (j : Fin 256) (d : Fin 1024) :
    (iblk m c 2 t : Vec F S1x256x1024 .f32) (ix3 (0 : Fin 1) j d)
      = m ((c : Thread nD τ).loc main_arg2) (ix3 (bOf t) (kCol t j) d) := by
  obtain ⟨e0, e1, e2⟩ := idx_v t
  unfold iblk
  rw [View.read_apply]
  show V m c main_arg2 _ = m (c.tc.loc main_arg2) _
  unfold V
  congr 1
  funext a
  apply Fin.ext
  match a with
  | ⟨0, _⟩ => show win0_2.index t (0 : Fin 3) * 1 + 1 * 0 = t.val / 16; rw [e0]; omega
  | ⟨1, _⟩ => show win0_2.index t (1 : Fin 3) * 256 + 1 * j.val = 256 * (t.val % 8) + j.val; rw [e1]; omega
  | ⟨2, _⟩ => show win0_2.index t (2 : Fin 3) * 1024 + 1 * d.val = d.val; rw [e2]; omega

/-! ## The output block -/

/-- Contents of the output's staging buffer that agree, entry by entry, with a function G of the array's indices at
    point t's rows are, written back, block t of G. -/
theorem out_blk (t : Fin cfg0.N) (G : S8x2048x1024.Idx → Elt F .f32) (X : Vec F S1x1024x1024 .f32)
    (h : ∀ r d : Fin 1024, X (ix3 (0 : Fin 1) r d) = G (ix3 (bOf t) (qRow t r) d)) :
    (cfg0.win 3).cut (grid0.coords t) X = ((cfg0.win 3).blk t).view.read (Elt F) G := by
  obtain ⟨e0, e1, e2⟩ := idx_o t
  refine funext fun (y : S1x1024x1024.Idx) => ?_
  rw [View.read_apply]
  obtain ⟨y0, r, d, rfl⟩ : ∃ (y0 : Fin 1) (r d : Fin 1024), y = ix3 y0 r d := ⟨y 0, y 1, y 2, eq_ix3 y⟩
  obtain rfl : y0 = 0 := Subsingleton.elim _ _
  refine (h r d).trans ?_
  congr 1
  funext a
  apply Fin.ext
  match a with
  | ⟨0, _⟩ => show t.val / 16 = win0_3.index t (0 : Fin 3) * 1 + 1 * 0; rw [e0]; omega
  | ⟨1, _⟩ => show 1024 * (t.val / 8 % 2) + r.val = win0_3.index t (1 : Fin 3) * 1024 + 1 * r.val; rw [e1]; omega
  | ⟨2, _⟩ => show d.val = win0_3.index t (2 : Fin 3) * 1024 + 1 * d.val; rw [e2]; omega

/-! ## The output blocks cover the array -/

/-- An index of the output array is in point t's block iff each coordinate is in the block's range on its axis. -/
theorem mem_blk3 (t : Fin cfg0.N) (i : S8x2048x1024.Idx) :
    i ∈ ((cfg0.win 3).blk t).view.set ↔ ∀ a : Fin 3, win0_3.index t a * S1x1024x1024.size a ≤ (i a).val
      ∧ (i a).val < win0_3.index t a * S1x1024x1024.size a + S1x1024x1024.size a := by
  show i ∈ ((View.whole main_v0).slice (win0_3.rect t)).set ↔ _
  rw [View.set_slice_whole, Rect.mem_set_unit]
  exact Iff.rfl

/-- Every index of the output array is written back: index (b, q, d) at the last key block of batch b and query tile
    q / 1024, the point 16 * b + 8 * (q / 1024) + 7. -/
theorem cover3 : ∀ i : S8x2048x1024.Idx, ∃ t : Fin cfg0.N, (cfg0.win 3).flush t = true ∧ i ∈ ((cfg0.win 3).blk t).view.set := by
  intro i
  have h0 : (i 0).val < 8 := (i 0).isLt
  have h1 : (i 1).val < 2048 := (i 1).isLt
  have h2 : (i 2).val < 1024 := (i 2).isLt
  have hN : cfg0.N = 128 := N_0
  obtain ⟨t, tv⟩ : ∃ t : Fin cfg0.N, t.val = 16 * (i 0).val + 8 * ((i 1).val / 1024) + 7 := ⟨⟨_, by omega⟩, rfl⟩
  obtain ⟨e0, e1, e2⟩ := idx_o t
  refine ⟨t, (flush0_3 t).mpr (by omega), ?_⟩
  rw [mem_blk3]
  intro a
  match a with
  | ⟨0, _⟩ => show win0_3.index t (0 : Fin 3) * 1 ≤ (i 0).val ∧ (i 0).val < win0_3.index t (0 : Fin 3) * 1 + 1; rw [e0]; omega
  | ⟨1, _⟩ => show win0_3.index t (1 : Fin 3) * 1024 ≤ (i 1).val ∧ (i 1).val < win0_3.index t (1 : Fin 3) * 1024 + 1024; rw [e1]; omega
  | ⟨2, _⟩ => show win0_3.index t (2 : Fin 3) * 1024 ≤ (i 2).val ∧ (i 2).val < win0_3.index t (2 : Fin 3) * 1024 + 1024; rw [e2]; omega

end Cert.KernelIdeal.Blocks

end
-- ==== Proof.Inv.lean ====
/-
  The three carried buffers after every grid point.

  Point `n` of the grid works on batch `n / 16`, query tile `n / 8 % 2` and key block `n % 8`.  For row `r` of the
  tile and output column `d`, the running maximum, the normaliser and the weighted sum the point leaves are the online
  form's triple after key blocks `0 … n % 8` (`Attn.state`), for the scores of query row `1024 (n / 8 % 2) + r` and the
  value column `d` of that batch: the first key block starts from `(-∞, 0, 0)`, and each later one continues from what
  the point before left, which worked on the same batch and query tile.
-/
import proofs.«126715_j90099823936228_2_alg».proof.Proof.Pieces
import proofs.«126715_j90099823936228_2_alg».proof.Proof.PayAt
import proofs.«126715_j90099823936228_2_alg».proof.Proof.Blocks
import proofs.«126715_j90099823936228_2_alg».proof.Proof.Spec

set_option maxRecDepth 16384

open scoped BigOperators

noncomputable section

namespace Cert.KernelIdeal.Inv

open Cert.KernelIdeal Cert.KernelIdeal.Gen Idealize.ShloMosaic Idealize.ShloMosaic.TcCoe Idealize.SL.Sem
open Idealize.ShloMosaic.ValueIdx Cert.Attn

variable (m : (ℓ : Loc nD τ sig) → Buf (Elt Ideal) ℓ)

/-- The batch of point `n`. -/
def bOf (n : ℕ) : Fin 8 := ⟨n / 16 % 8, Nat.mod_lt _ (by norm_num)⟩
/-- The query row of row `r` of point `n`'s tile. -/
def qRow (n : ℕ) (r : Fin 1024) : Fin 2048 := ⟨(1024 * (n / 8 % 2) + r.val) % 2048, Nat.mod_lt _ (by norm_num)⟩

/-- The scores of query row `q` of batch `b`, by key block and place. -/
def rowS (c : Dev nD) (b : Fin 8) (q : Fin 2048) : ℕ → Fin 256 → EReal := fun k j =>
  score (m ((c : Thread nD τ).loc main_arg0)) (m ((c : Thread nD τ).loc main_arg1)) b q (col k j)
/-- Column `d` of the values of batch `b`, by key block and place. -/
def colW (c : Dev nD) (b : Fin 8) (d : Fin 1024) : ℕ → Fin 256 → EReal := fun k j =>
  m ((c : Thread nD τ).loc main_arg2) (ix3 b (col k j) d)

/-- The library of block reads names a point's coordinates through the point; they are these. -/
theorem bOf_eq (t : Fin cfg0.N) : Blocks.bOf t = bOf t.val :=
  Fin.ext (by have := Blocks.lt_N t; show t.val / 16 = t.val / 16 % 8; omega)
theorem qRow_eq (t : Fin cfg0.N) (r : Fin 1024) : Blocks.qRow t r = qRow t.val r :=
  Fin.ext (by have := Blocks.lt_N t; have := r.isLt; show 1024 * (t.val / 8 % 2) + r.val = (1024 * (t.val / 8 % 2) + r.val) % 2048; omega)
theorem kCol_eq (t : Fin cfg0.N) (j : Fin 256) : Blocks.kCol t j = col (t.val % 8) j :=
  Fin.ext (by have := j.isLt; show 256 * (t.val % 8) + j.val = (256 * (t.val % 8) + j.val) % 2048; omega)

/-- At point `t` the block's scores on row `r` are the row's scores at key block `t % 8`, -/
theorem scores_at (c : Dev nD) (t : Fin cfg0.N) (r : Fin 1024) (j : Fin 256) :
    k0_pay8 (F := Ideal) (iblk m c 0 t) (iblk m c 1 t) (ix2 r j) = rowS m c (bOf t.val) (qRow t.val r) (t.val % 8) j := by
  refine (PayAt.score_at (iblk m c 0 t) (iblk m c 1 t) r j).trans ?_
  unfold rowS score
  refine congrArg (· * Ideal.ofBits .f32 0x3D000000#32) (Finset.sum_congr rfl fun e _ => ?_)
  refine congrArg₂ (· * ·) ((Blocks.q_blk m c t r e).trans ?_) ((Blocks.k_blk m c t e j).trans ?_)
  · rw [bOf_eq, qRow_eq]
  · rw [bOf_eq, kCol_eq]

/-- and the value block's column `d` is the values' column at key block `t % 8`. -/
theorem values_at (c : Dev nD) (t : Fin cfg0.N) (j : Fin 256) (d : Fin 1024) :
    (iblk m c 2 t : Vec Ideal S1x256x1024 .f32) (ix3 (0 : Fin 1) j d) = colW m c (bOf t.val) d (t.val % 8) j := by
  refine (Blocks.v_blk m c t j d).trans ?_
  rw [bOf_eq, kCol_eq]
  rfl

/-- THE FIRST KEY BLOCK of a query tile: the triple after block `0`, from `(-∞, 0, 0)`. -/
theorem first_block (c : Dev nD) (t : Fin cfg0.N) (h0 : t.val % 8 = 0) (r d : Fin 1024) :
    ((outsAt0 m c t.val t.isLt).2.1 (ix2 r (0 : Fin 1)), (outsAt0 m c t.val t.isLt).2.2.1 (ix2 r (0 : Fin 1)), (outsAt0 m c t.val t.isLt).2.2.2 (ix2 r d))
      = state (rowS m c (bOf t.val) (qRow t.val r)) (colW m c (bOf t.val) d) (t.val % 8) := by
  have h1 : ¬t.val % 8 = 7 := by omega
  rw [outsAt0_A m c t h0 h1]
  dsimp only
  rw [Pieces.sA0 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t),
    Pieces.sA1 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t),
    Pieces.sA2 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t)]
  refine (PayAt.step_at (iblk m c 0 t) (iblk m c 1 t) (iblk m c 2 t) (k0_pay4 (F := Ideal)) (k0_pay5 (F := Ideal)) (k0_pay6 (F := Ideal)) r d
    (rowS m c (bOf t.val) (qRow t.val r) 0) (colW m c (bOf t.val) d 0) (⊥, 0, 0)
    (fun j => (scores_at m c t r j).trans (congrArg (fun k => rowS m c (bOf t.val) (qRow t.val r) k j) h0))
    (fun j => (values_at m c t j d).trans (congrArg (fun k => colW m c (bOf t.val) d k j) h0))
    (PayAt.init_m_at r) (PayAt.init_l_at r) (PayAt.init_a_at r d)).trans ?_
  exact (congrArg (state (rowS m c (bOf t.val) (qRow t.val r)) (colW m c (bOf t.val) d)) h0).symm

/-- A LATER KEY BLOCK continues from the point before, which worked on the same batch and query tile. -/
theorem later_block (c : Dev nD) (t : Fin cfg0.N) (h0 : ¬t.val % 8 = 0) (r d : Fin 1024)
    (ih : ((outsAt0 m c (t.val - 1) (Nat.lt_of_le_of_lt (Nat.sub_le _ _) t.isLt)).2.1 (ix2 r (0 : Fin 1)), (outsAt0 m c (t.val - 1) (Nat.lt_of_le_of_lt (Nat.sub_le _ _) t.isLt)).2.2.1 (ix2 r (0 : Fin 1)), (outsAt0 m c (t.val - 1) (Nat.lt_of_le_of_lt (Nat.sub_le _ _) t.isLt)).2.2.2 (ix2 r d))
      = state (rowS m c (bOf (t.val - 1)) (qRow (t.val - 1) r)) (colW m c (bOf (t.val - 1)) d) ((t.val - 1) % 8)) :
    ((outsAt0 m c t.val t.isLt).2.1 (ix2 r (0 : Fin 1)), (outsAt0 m c t.val t.isLt).2.2.1 (ix2 r (0 : Fin 1)), (outsAt0 m c t.val t.isLt).2.2.2 (ix2 r d))
      = state (rowS m c (bOf t.val) (qRow t.val r)) (colW m c (bOf t.val) d) (t.val % 8) := by
  have hN := Blocks.lt_N t
  have hb : bOf (t.val - 1) = bOf t.val := Fin.ext (by show (t.val - 1) / 16 % 8 = t.val / 16 % 8; omega)
  have hq : qRow (t.val - 1) r = qRow t.val r :=
    Fin.ext (by show (1024 * ((t.val - 1) / 8 % 2) + r.val) % 2048 = (1024 * (t.val / 8 % 2) + r.val) % 2048; omega)
  have hk : t.val % 8 = (t.val - 1) % 8 + 1 := by omega
  rw [hb, hq] at ih
  by_cases h1 : t.val % 8 = 7
  ·
    rw [outsAt0_C m c t h0 h1]
    dsimp only
    rw [Pieces.sC0 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
      Pieces.sC1 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
      Pieces.sC2 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2]
    refine (PayAt.step_at (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 r d
      (rowS m c (bOf t.val) (qRow t.val r) ((t.val - 1) % 8 + 1)) (colW m c (bOf t.val) d ((t.val - 1) % 8 + 1))
      (state (rowS m c (bOf t.val) (qRow t.val r)) (colW m c (bOf t.val) d) ((t.val - 1) % 8))
      (fun j => (scores_at m c t r j).trans (congrArg (fun k => rowS m c (bOf t.val) (qRow t.val r) k j) hk))
      (fun j => (values_at m c t j d).trans (congrArg (fun k => colW m c (bOf t.val) d k j) hk))
      (congrArg Prod.fst ih) (congrArg (fun p => p.2.1) ih) (congrArg (fun p => p.2.2) ih)).trans ?_
    exact (congrArg (state (rowS m c (bOf t.val) (qRow t.val r)) (colW m c (bOf t.val) d)) hk).symm
  ·
    rw [outsAt0_B m c t h0 h1]
    dsimp only
    rw [Pieces.sB0 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
      Pieces.sB1 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
      Pieces.sB2 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2]
    refine (PayAt.step_at (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 r d
      (rowS m c (bOf t.val) (qRow t.val r) ((t.val - 1) % 8 + 1)) (colW m c (bOf t.val) d ((t.val - 1) % 8 + 1))
      (state (rowS m c (bOf t.val) (qRow t.val r)) (colW m c (bOf t.val) d) ((t.val - 1) % 8))
      (fun j => (scores_at m c t r j).trans (congrArg (fun k => rowS m c (bOf t.val) (qRow t.val r) k j) hk))
      (fun j => (values_at m c t j d).trans (congrArg (fun k => colW m c (bOf t.val) d k j) hk))
      (congrArg Prod.fst ih) (congrArg (fun p => p.2.1) ih) (congrArg (fun p => p.2.2) ih)).trans ?_
    exact (congrArg (state (rowS m c (bOf t.val) (qRow t.val r)) (colW m c (bOf t.val) d)) hk).symm

/-- THE INVARIANT: after point `n` the three buffers hold, at row `r` (and column `d`), the online triple after key blocks
    `0 … n % 8`. -/
theorem inv (c : Dev nD) : ∀ (n : ℕ) (h : n < cfg0.N) (r d : Fin 1024),
    ((outsAt0 m c n h).2.1 (ix2 r (0 : Fin 1)), (outsAt0 m c n h).2.2.1 (ix2 r (0 : Fin 1)), (outsAt0 m c n h).2.2.2 (ix2 r d))
      = state (rowS m c (bOf n) (qRow n r)) (colW m c (bOf n) d) (n % 8)
  | 0, h, r, d => first_block m c ⟨0, h⟩ rfl r d
  | n + 1, h, r, d => by
    by_cases h0 : (n + 1) % 8 = 0
    · exact first_block m c ⟨n + 1, h⟩ h0 r d
    · exact later_block m c ⟨n + 1, h⟩ h0 r d (inv c n (Nat.lt_of_succ_lt h) r d)

end Cert.KernelIdeal.Inv

end
-- ==== Proof.KValue.lean ====
/-
  The kernel's result array: after the run, entry (b, q, d) of the output is the weighted sum over the normaliser
  that the eight key blocks leave for query row q of batch b and output column d.

  The output is written back at the last key block of each batch and query tile (the points t with t % 8 = 7), and
  what is written there is, entry by entry, the weighted sum the point leaves over the normaliser it leaves. After
  every point these are the online triple of the row's scores and the value column, so at the last key block their
  quotient is the block-by-block attention of the three arguments at the entry. The written blocks cover the array.
-/
import proofs.«126715_j90099823936228_2_alg».proof.Proof.Gen.KernelIdeal.Value
import proofs.«126715_j90099823936228_2_alg».proof.Proof.Spec
import proofs.«126715_j90099823936228_2_alg».proof.Proof.Pieces
import proofs.«126715_j90099823936228_2_alg».proof.Proof.PayAt
import proofs.«126715_j90099823936228_2_alg».proof.Proof.Blocks
import proofs.«126715_j90099823936228_2_alg».proof.Proof.Inv

noncomputable section

namespace Cert.KernelIdeal.KValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-- At a last key block the output's staging buffer holds the quotient form of the two buffers the point leaves: the
    weighted sum over the normaliser. -/
theorem out_C (c : Dev nD) (t : Fin cfg0.N) (h0 : ¬t.val % 8 = 0) (h1 : t.val % 8 = 7) :
    (outsAt0 m c t.val t.isLt).1
      = k0_pay3 (outsAt0 m c t.val t.isLt).2.2.2 (outsAt0 m c t.val t.isLt).2.2.1 := by
  rw [outsAt0_C m c t h0 h1]
  dsimp only
  rw [Pieces.sC1 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
    Pieces.sC2 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2]
  exact Pieces.oC3 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2

/-- What a last key block writes back is its block of the block-by-block attention of the arguments. -/
theorem flushed_eq (c : Dev nD) (t : Fin cfg0.N) (hf : (cfg0.win 3).flush t = true) :
    (dats m 0 c).flushed 3 t = ((cfg0.win 3).blk t).view.read (Elt Ideal)
      (Cert.Attn.Gon (m ((c : Thread nD τ).loc main_arg0)) (m ((c : Thread nD τ).loc main_arg1)) (m ((c : Thread nD τ).loc main_arg2))) := by
  have h7 : t.val % 8 = 7 := (flush0_3 t).mp hf
  have h0 : ¬t.val % 8 = 0 := by omega
  rw [Value.flushed3, out_C m c t h0 h7]
  refine Blocks.out_blk (F := Ideal) t _ _ (fun r d => ?_)
  rw [PayAt.out_at]
  have hi := Inv.inv m c t.val t.isLt r d
  have hb : Inv.bOf t.val = Blocks.bOf t := Fin.ext (by
    have := Blocks.lt_N t
    show t.val / 16 % 8 = t.val / 16
    omega)
  have hq : Inv.qRow t.val r = Blocks.qRow t r := Fin.ext (by
    have := r.isLt
    show (1024 * (t.val / 8 % 2) + r.val) % 2048 = 1024 * (t.val / 8 % 2) + r.val
    omega)
  rw [h7, hb, hq] at hi
  have hl := congrArg (fun x => x.2.1) hi
  have ha := congrArg (fun x => x.2.2) hi
  dsimp only at hl ha
  rw [ha, hl]
  rfl

/-- So the result array ends holding the block-by-block attention of the arguments: the written blocks cover it. -/
theorem final (c : Dev nD) : (dats m 0 c).arrAt 3 cfg0.N
    = Cert.Attn.Gon (m ((c : Thread nD τ).loc main_arg0)) (m ((c : Thread nD τ).loc main_arg1)) (m ((c : Thread nD τ).loc main_arg2)) :=
  (dats m 0 c).arrAt_eq_of_cover 3 _ (flushed_eq m c) Blocks.cover3

/-- The run, read: the result array holds the block-by-block attention of the argument arrays, which are unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v0)
        = Cert.Attn.Gon (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.KValue

end
-- ==== Proof.LibFoldMax.lean ====
/-
  Maxima along one axis, read at an index given by coordinates, at the extended reals.

  The maximum of an `a × b` array along its first axis is, at column `c`, the fold of `max` over the rows `r` of the
  entries `(r, c)`, started from the value the accumulator word denotes; the maximum of an `m × n × k` array along its
  last axis, as the host's reduce with a maximum body computes it, is at `(p, q)` the fold of `max` over `r` of the entries
  `(p, q, r)`, started from the initial value.  `max` commutes and associates, so the order of the fold does not matter
  and both are folds over the whole finite set of coordinates.
-/
import Idealize.ShloMosaic.Lib.Pipeline.Value
import Idealize.ShloMosaic.Lib.ValueIdx
import Idealize.ShloMosaic.PureOps.Ideal.Laws

namespace Cert.LibFoldMax

open Idealize.ShloMosaic Idealize.ShloMosaic.ValueIdx

variable {φ : FTy}

/-- COLUMN MAXIMA. The float maximum of an `a × b` array along its first axis is, at column `c`, the fold of `max` over
    the rows, from the accumulator's value. -/
theorem multiReduction_maximumf_cols {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ)
    (c : Fin b) :
    multiReduction .maximumf [0] ⟨1, ![b]⟩ src acc h hφ hacc (ix1 c)
      = (Finset.univ : Finset (Fin a)).fold max (Ideal.ofBits φ acc) (fun r => src (ix2 r c)) := by
  refine (Ideal.multiReduction_maximumf_single src acc h hφ hacc (ix1 c)).trans ?_
  refine congrArg (fun f => Finset.fold max (Ideal.ofBits φ acc) f (Finset.univ : Finset (Fin a)))
    (funext fun r => congrArg src (funext fun ax => Fin.ext ?_))
  rw [h.lift_val]
  unfold Shape.Reduces.liftVal
  match ax with
  | ⟨0, _⟩ => rfl
  | ⟨1, _⟩ => rfl

/-- LAST-AXIS MAXIMA ON THE HOST. A one-operand reduce with a maximum body over the last axis of an `m × n × k` array is,
    at `(p, q)`, the fold of `max` over that axis, from the initial value. -/
theorem hostReduce_maximumf_last3 {m n k : ℕ} (x : FVec Ideal ⟨3, ![m, n, k]⟩ φ) (init : (⟨0, ![]⟩ : Shape).Idx → Ideal φ)
    (h' : (⟨3, ![m, n, k]⟩ : Shape).ReducesTo [2] ⟨2, ![m, n]⟩) (h : (⟨3, ![m, n, k]⟩ : Shape).Reduces [2] ⟨2, ![m, n]⟩)
    (hu : 0 < (⟨0, ![]⟩ : Shape).numel) (p : Fin m) (q : Fin n) :
    Host.reduce FloatOps.maximumf x init h' hu (ix2 p q)
      = (Finset.univ : Finset (Fin k)).fold max (init (Shape.Idx.first hu)) (fun r => x (ix3 p q r)) := by
  refine (Host.reduce_eq_fold_single FloatOps.maximumf x init h' h hu (ix2 p q)).trans ?_
  refine congrArg (fun f => Finset.fold max (init (Shape.Idx.first hu)) f (Finset.univ : Finset (Fin k)))
    (funext fun r => congrArg x (funext fun ax => Fin.ext ?_))
  rw [h.lift_val]
  unfold Shape.Reduces.liftVal
  match ax with
  | ⟨0, _⟩ => rfl
  | ⟨1, _⟩ => rfl
  | ⟨2, _⟩ => rfl

end Cert.LibFoldMax
-- ==== Proof.RefValue.lean ====
/-
  The reference program's result is the specification.

  Stage by stage the reference computes, at batch b and query row q: the scaled scores
  score b q j = (∑ e, Q (b, q, e) * K (b, e, j)) * 2⁻⁵; their maximum over j taken from -∞, and once more against
  -∞; the exponentials of the scores less that maximum; the sum of the exponentials taken from 0; the quotients of
  each exponential by that sum; and at output column d the sum over j of the quotient times V (b, j, d).  Each stage
  is, one for one, a piece of Attn.attnRow applied to the scores and the value column, so the last stage is Attn.G
  of the three arguments.  No finiteness is needed: both sides are the same expression on the extended reals.
-/
import proofs.«126715_j90099823936228_2_alg».proof.Proof.Gen.ReferenceIdeal.Read
import proofs.«126715_j90099823936228_2_alg».proof.Proof.LibFoldMax
import proofs.«126715_j90099823936228_2_alg».proof.Proof.Spec

open scoped BigOperators

noncomputable section

namespace Cert.ReferenceIdeal.RefValue

open Cert.ReferenceIdeal Cert.ReferenceIdeal.Gen Cert.ReferenceIdeal.Read Idealize.ShloMosaic
  Idealize.ShloMosaic.ValueIdx Cert.Attn

/-! ## Indices by coordinates -/

theorem lidx0_eq (b : Fin 8) (q j : Fin 2048) (k : Fin 1024) : lidx_main_v0 (ix3 b q j) k = ix3 b q k :=
  funext fun a => Fin.ext (by match a with | ⟨0, _⟩ => rfl | ⟨1, _⟩ => rfl | ⟨2, _⟩ => rfl)

theorem ridx0_eq (b : Fin 8) (q j : Fin 2048) (k : Fin 1024) : ridx_main_v0 (ix3 b q j) k = ix3 b k j :=
  funext fun a => Fin.ext (by match a with | ⟨0, _⟩ => rfl | ⟨1, _⟩ => rfl | ⟨2, _⟩ => rfl)

theorem idx67_eq (b : Fin 8) (q j : Fin 2048) : idx_main_v6 (idx_main_v7 (ix3 b q j)) = ix2 b q :=
  funext fun a => Fin.ext (by match a with | ⟨0, _⟩ => rfl | ⟨1, _⟩ => rfl)

theorem idx10_eq (b : Fin 8) (q k : Fin 2048) : idx_main_v10 (ix2 b q) k = ix3 b q k :=
  funext fun a => Fin.ext (by match a with | ⟨0, _⟩ => rfl | ⟨1, _⟩ => rfl | ⟨2, _⟩ => rfl)

theorem idx1112_eq (b : Fin 8) (q j : Fin 2048) : idx_main_v11 (idx_main_v12 (ix3 b q j)) = ix2 b q :=
  funext fun a => Fin.ext (by match a with | ⟨0, _⟩ => rfl | ⟨1, _⟩ => rfl)

theorem lidx14_eq (b : Fin 8) (q : Fin 2048) (d : Fin 1024) (k : Fin 2048) : lidx_main_v14 (ix3 b q d) k = ix3 b q k :=
  funext fun a => Fin.ext (by match a with | ⟨0, _⟩ => rfl | ⟨1, _⟩ => rfl | ⟨2, _⟩ => rfl)

theorem ridx14_eq (b : Fin 8) (q : Fin 2048) (d : Fin 1024) (k : Fin 2048) : ridx_main_v14 (ix3 b q d) k = ix3 b k d :=
  funext fun a => Fin.ext (by match a with | ⟨0, _⟩ => rfl | ⟨1, _⟩ => rfl | ⟨2, _⟩ => rfl)

/-! ## The stages -/

/-- The word 0xFF800000 denotes -∞. -/
theorem ofBits_neg_inf : Ideal.ofBits .f32 0xFF800000#32 = (⊥ : EReal) := by simp [Ideal.ofBits, Ideal.ieee]

variable (x0 : FVec Ideal S8x2048x1024 .f32) (x1 : FVec Ideal S8x1024x2048 .f32)

/-- The largest score of a row, from -∞ and once more against -∞. -/
abbrev rowMax (b : Fin 8) (q : Fin 2048) : EReal :=
  max ⊥ (Finset.univ.fold max ⊥ (fun j : Fin 2048 => score x0 x1 b q j))

/-- The product with the scale is the scaled score. -/
theorem v2_at (b : Fin 8) (q j : Fin 2048) :
    val_main_v2 (F := Ideal) x0 x1 (ix3 b q j) = score x0 x1 b q j := by
  rw [val_main_v2_apply, val_main_v0_apply, val_main_v1_apply, val_main_cst_apply]
  simp only [lidx0_eq, ridx0_eq]
  rfl

/-- The maximum-reduce over the key axis is the fold of max over the row's scores, from -∞. -/
theorem v3_at (b : Fin 8) (q : Fin 2048) :
    val_main_v3 (F := Ideal) x0 x1 (ix2 b q) = Finset.univ.fold max ⊥ (fun j : Fin 2048 => score x0 x1 b q j) := by
  unfold val_main_v3
  refine (Cert.LibFoldMax.hostReduce_maximumf_last3 (val_main_v2 (F := Ideal) x0 x1) (val_main_cst_0 (F := Ideal))
    reducesTo_S8x2048x2048_S8x2048_d2 (by decide) h_S_ b q).trans ?_
  rw [val_main_cst_0_apply, Ideal.ofBits_def, ofBits_neg_inf]
  simp only [v2_at]

/-- The maximum against the broadcast -∞. -/
theorem v5_at (b : Fin 8) (q : Fin 2048) :
    val_main_v5 (F := Ideal) x0 x1 (ix2 b q) = rowMax x0 x1 b q := by
  rw [val_main_v5_apply, val_main_v4_apply, val_main_cst_1_apply, v3_at, Ideal.maximumf_def, Ideal.ofBits_def,
    ofBits_neg_inf]

/-- The exponential of the score less the row's maximum. -/
theorem v9_at (b : Fin 8) (q j : Fin 2048) :
    val_main_v9 (F := Ideal) x0 x1 (ix3 b q j) = Ideal.exp (score x0 x1 b q j - rowMax x0 x1 b q) := by
  rw [val_main_v9_apply, val_main_v8_apply, v2_at, val_main_v7_apply, val_main_v6_apply, idx67_eq, v5_at,
    Ideal.hostUnary_exp_def, Ideal.subf_def]

/-- The sum-reduce over the key axis is the normaliser, from 0. -/
theorem v10_at (b : Fin 8) (q : Fin 2048) :
    val_main_v10 (F := Ideal) x0 x1 (ix2 b q)
      = 0 + ∑ j : Fin 2048, Ideal.exp (score x0 x1 b q j - rowMax x0 x1 b q) := by
  rw [val_main_v10_apply, val_main_cst_2_apply, Ideal.ofBits_def, Ideal.ofBits_zero_f32]
  simp only [idx10_eq, v9_at]

/-- The quotient of an exponential by the normaliser. -/
theorem v13_at (b : Fin 8) (q j : Fin 2048) :
    val_main_v13 (F := Ideal) x0 x1 (ix3 b q j)
      = Ideal.div (Ideal.exp (score x0 x1 b q j - rowMax x0 x1 b q))
          (0 + ∑ j' : Fin 2048, Ideal.exp (score x0 x1 b q j' - rowMax x0 x1 b q)) := by
  rw [val_main_v13_apply, v9_at, val_main_v12_apply, val_main_v11_apply, idx1112_eq, v10_at, Ideal.hostDivf_def]

/-! ## The result -/

/-- THE REFERENCE'S LAST STAGE IS THE SPECIFICATION: the product of the quotients with the values, summed over the keys, is
    the softmax-weighted average of the value column under the row's scores. -/
theorem val_is_G (x2 : FVec Ideal S8x2048x1024 .f32) :
    val_main_v14 (F := Ideal) x0 x1 x2 = Cert.Attn.G x0 x1 x2 := by
  funext i
  obtain ⟨b, q, d, rfl⟩ : ∃ (b : Fin 8) (q : Fin 2048) (d : Fin 1024), i = ix3 b q d := ⟨i 0, i 1, i 2, eq_ix3 i⟩
  rw [val_main_v14_apply]
  simp only [lidx14_eq, ridx14_eq, v13_at]
  rfl

/-- The term the reference's run states for its result is the specification of the three arguments. -/
theorem ref_is_G (x0 : FVec Ideal S8x2048x1024 .f32) (x1 : FVec Ideal S8x1024x2048 .f32) (x2 : FVec Ideal S8x2048x1024 .f32) :
    Host.dotGeneral dot_S8x2048x2048_S8x2048x1024_S8x2048x1024_2_1_1_2_0_0 none (Host.divf (Host.exp (subf (mulf (Host.dotGeneral dot_S8x2048x1024_S8x1024x2048_S8x2048x2048_2_1_1_2_0_0 none (x0) (x1)) (broadcastInDim S8x2048x2048 ![] bcast_S_S8x2048x2048 (constant (F := Ideal) S_ .f32 0x3D000000#32))) (broadcastInDim S8x2048x2048 ![0, 1, 2] bcast_S8x2048x1_S8x2048x2048_0_1_2 (broadcastInDim S8x2048x1 ![0, 1] bcast_S8x2048_S8x2048x1_0_1 (maximumf (broadcastInDim S8x2048 ![] bcast_S_S8x2048 (constant (F := Ideal) S_ .f32 0xFF800000#32)) (Host.reduce FloatOps.maximumf (mulf (Host.dotGeneral dot_S8x2048x1024_S8x1024x2048_S8x2048x2048_2_1_1_2_0_0 none (x0) (x1)) (broadcastInDim S8x2048x2048 ![] bcast_S_S8x2048x2048 (constant (F := Ideal) S_ .f32 0x3D000000#32))) (constant (F := Ideal) S_ .f32 0xFF800000#32) reducesTo_S8x2048x2048_S8x2048_d2 h_S_)))))) (broadcastInDim S8x2048x2048 ![0, 1, 2] bcast_S8x2048x1_S8x2048x2048_0_1_2 (broadcastInDim S8x2048x1 ![0, 1] bcast_S8x2048_S8x2048x1_0_1 (Host.reduceAdd (Host.exp (subf (mulf (Host.dotGeneral dot_S8x2048x1024_S8x1024x2048_S8x2048x2048_2_1_1_2_0_0 none (x0) (x1)) (broadcastInDim S8x2048x2048 ![] bcast_S_S8x2048x2048 (constant (F := Ideal) S_ .f32 0x3D000000#32))) (broadcastInDim S8x2048x2048 ![0, 1, 2] bcast_S8x2048x1_S8x2048x2048_0_1_2 (broadcastInDim S8x2048x1 ![0, 1] bcast_S8x2048_S8x2048x1_0_1 (maximumf (broadcastInDim S8x2048 ![] bcast_S_S8x2048 (constant (F := Ideal) S_ .f32 0xFF800000#32)) (Host.reduce FloatOps.maximumf (mulf (Host.dotGeneral dot_S8x2048x1024_S8x1024x2048_S8x2048x2048_2_1_1_2_0_0 none (x0) (x1)) (broadcastInDim S8x2048x2048 ![] bcast_S_S8x2048x2048 (constant (F := Ideal) S_ .f32 0x3D000000#32))) (constant (F := Ideal) S_ .f32 0xFF800000#32) reducesTo_S8x2048x2048_S8x2048_d2 h_S_)))))) (constant (F := Ideal) S_ .f32 0x00000000#32) reducesTo_S8x2048x2048_S8x2048_d2 h_S_)))) (x2)
      = Cert.Attn.G x0 x1 x2 :=
  (val_main_v14_eq (F := Ideal) x0 x1 x2).trans (val_is_G x0 x1 x2)

end Cert.ReferenceIdeal.RefValue

end
-- ==== Proof.Finite.lean ====
/-
  The precondition read back: every entry of the three argument arrays is a real number.

  The precondition is the printed form of  all(|q| < inf) & all(|k| < inf) & all(|v| < inf)  as a rank-0 one-bit
  array, claimed equal to 1. Read at the extended reals: the outer two `and`s split the claim in three; each `all`
  is a reduction by `and` over every axis, so it being 1 says every element of the compared array is 1; an element
  is the comparison  max x (-x) < ⊤  (the constant 0x7F800000 is +∞, and |x| is max x (-x)); and of the three kinds
  of extended real only a real satisfies it: at ⊥ and at ⊤ the maximum is ⊤, which is not below ⊤.
-/
import proofs.«126715_j90099823936228_2_alg».proof.Pre_finite_inputs
import Idealize.ShloMosaic.Lib.ReduceAll
import Idealize.ShloMosaic.Lib.IdealHost

noncomputable section

namespace Cert.Attn.Finite

open Idealize.ShloMosaic Idealize.ShloMosaic.ValueIdx
open Cert.Pre_finite_inputs

/-- The rank-0 shape has one index. -/
instance : Subsingleton S_.Idx := ⟨fun a b => funext fun d => d.elim0⟩

/-- The f32 pattern 0x7F800000 is +∞. -/
theorem ofBits_inf_f32 : Ideal.ofBits .f32 0x7F800000#32 = ⊤ := by simp [Ideal.ofBits, Ideal.ieee]

/-- |x| < +∞, as the one-bit word the comparison gives, says x is a real: at ⊥ and at ⊤ the maximum of x and -x
    is ⊤, which is not strictly below ⊤. -/
theorem real_of_abs_lt_top (x : EReal) (h : Ideal.cmp .olt (max x (-x)) ⊤ = 1#1) : ∃ r : ℝ, x = (r : EReal) := by
  induction x using EReal.rec with
  | bot => simp [Ideal.cmp] at h
  | coe r => exact ⟨r, rfl⟩
  | top => simp [Ideal.cmp] at h

/-- One element of the compared array: |x i| against the broadcast +∞ constant. -/
theorem real_of_elem {s : Shape} (hb : S_.BroadcastsInDim s (![] : Fin 0 → Fin s.rank)) (x : FVec Ideal s .f32) (i : s.Idx)
    (h : cmpf .olt (Host.absf x) (broadcastInDim s ![] hb (constant (F := Ideal) S_ .f32 0x7F800000#32)) i = 1#1) :
    ∃ r : ℝ, x i = (r : EReal) := by
  apply real_of_abs_lt_top
  rw [← ofBits_inf_f32]
  exact h

/-- THE PRECONDITION DECODED: every entry of each of the three argument arrays is a real number. -/
theorem finite_of_pre [Facts] (x0 : FVec Ideal S8x2048x1024 .f32) (x1 : FVec Ideal S8x1024x2048 .f32)
    (x2 : FVec Ideal S8x2048x1024 .f32) (h : fn (F := Ideal) x0 x1 x2 = fun _ => 1#1) :
    (∀ i, ∃ r : ℝ, x0 i = (r : EReal)) ∧ (∀ i, ∃ r : ℝ, x1 i = (r : EReal)) ∧ (∀ i, ∃ r : ℝ, x2 i = (r : EReal)) := by
  have e := congrFun h ix0
  dsimp only [fn] at e
  obtain ⟨e01, e2⟩ := IntOp.andi_eq_one.1 e
  obtain ⟨e0, e1⟩ := IntOp.andi_eq_one.1 e01
  exact ⟨fun i => real_of_elem _ x0 i (Host.reduce_andi_all _ _ _ _ _ e0 i),
    fun i => real_of_elem _ x1 i (Host.reduce_andi_all _ _ _ _ _ e1 i),
    fun i => real_of_elem _ x2 i (Host.reduce_andi_all _ _ _ _ _ e2 i)⟩

end Cert.Attn.Finite

end
-- ==== Proof.OnlineSpec.lean ====
/-
  The block-by-block entry is the specified entry, for finite arguments.

  With every entry of Q, K and V a real, every score is a real (a finite sum of products of reals, times the
  scale, itself a real), so the scores and values of block n at place j are coercions of reals S n j, W n j, and
  the online form over them is the one-pass form (`online_eq`) over column j ↦ (S (j / 256) (j % 256), W …).
  Column 256 (j / 256) + j % 256 is j, so these are the scores and values of the specification.
-/
import proofs.«126715_j90099823936228_2_alg».proof.Proof.Spec

open scoped BigOperators

noncomputable section

namespace Cert.Attn

open Idealize.ShloMosaic Idealize.ShloMosaic.ValueIdx

/-- The scale, the float 0x3D000000 (sign 0, exponent 122, fraction 0: 2⁻⁵), is a real. -/
theorem scale_real : ∃ c : ℝ, Ideal.ofBits .f32 0x3D000000#32 = (c : EReal) :=
  ⟨_, by simp [Ideal.ofBits, Ideal.ieee, -EReal.coe_mul]; rfl⟩

/-- Place j % 256 of block j / 256 is column j. -/
theorem col_place (j : Fin 2048) : col (j.val / 256) (place j) = j := by
  apply Fin.ext
  have := j.isLt
  simp only [col, place]
  omega

/-- A score of real arguments is a real. -/
theorem score_coe (q : SQ.Idx → ℝ) (k : SK.Idx → ℝ) (c : ℝ) (hc : Ideal.ofBits .f32 0x3D000000#32 = (c : EReal))
    (b : Fin 8) (r j : Fin 2048) :
    score (fun i => (q i : EReal)) (fun i => (k i : EReal)) b r j
      = (((∑ e : Fin 1024, q (ix3 b r e) * k (ix3 b e j)) * c : ℝ) : EReal) := by
  simp only [score, hc, ← EReal.coe_mul, coe_sum]

/-- BLOCK BY BLOCK = THE SPECIFICATION, for finite arguments. -/
theorem Gon_eq_G (Q : SQ.Idx → EReal) (K : SK.Idx → EReal) (V : SQ.Idx → EReal)
    (hQ : ∀ i, ∃ r : ℝ, Q i = (r : EReal)) (hK : ∀ i, ∃ r : ℝ, K i = (r : EReal))
    (hV : ∀ i, ∃ r : ℝ, V i = (r : EReal)) : Gon Q K V = G Q K V := by
  choose q hq using hQ
  choose k hk using hK
  choose v hv using hV
  obtain ⟨c, hc⟩ := scale_real
  obtain rfl : Q = fun i => (q i : EReal) := funext hq
  obtain rfl : K = fun i => (k i : EReal) := funext hk
  obtain rfl : V = fun i => (v i : EReal) := funext hv
  funext i
  have h := online_eq (fun n j => (∑ e : Fin 1024, q (ix3 (i 0) (i 1) e) * k (ix3 (i 0) e (col n j))) * c)
    (fun n j => v (ix3 (i 0) (col n j) (i 2)))
  simp only [col_place] at h
  simp only [Gon, G, score_coe q k c hc (i 0) (i 1)]
  exact h

end Cert.Attn

end
-- ==== Proof.lean ====
/-
  Attention computed block by block is softmax attention, on the extended reals, for finite inputs.

  For every batch b, query row q and output column d the result is

      out (b, q, d) = ∑ j, exp (s j - M) / (∑ j', exp (s j' - M)) * V (b, j, d),
      s j = (∑ e, Q (b, q, e) * K (b, e, j)) * 2⁻⁵,      M = max j, s j,

  the sums and the maximum over the 2048 key columns. The reference computes it in one pass. The kernel goes
  through the key columns in eight blocks of 256, carrying a running maximum m, a normaliser l and a weighted
  sum a, and at every block rescales the old l and a by exp (m_old - m_new); its result is a / l after the last
  block. Both are read with a float an extended real and every operation exact.

  The two agree when every entry of Q, K and V is a real number, which is what the precondition says. The laws
  behind the agreement are

      exp (m_old - m) * ∑ exp (s - m_old) = ∑ exp (s - m)      and      (∑ p * v) / L = ∑ (p / L) * v,

  for finite scores s, values v and a finite positive normaliser L; at the infinities they fail (a difference of
  infinities, a product of 0 and ∞), which is why finiteness is needed.

  The parts, one module each under Proof/: Softmax (on one row, the online form is the one-pass form), Spec (the
  specification G entry by entry, and the same entry block by block, Gon), OnlineSpec (Gon = G for finite
  arguments), KValue (the kernel's result array is Gon of its arguments), RefValue (the reference's result array
  is G of its arguments), Finite (the precondition read back: every entry is a real). Here they are put together:
  each of the three programs runs and leaves its arguments unchanged; the kernel read at the extended reals is its
  own text, no operation having been rewritten; and from memories that agree on the arguments the two runs end
  with equal result arrays.
-/
import proofs.«126715_j90099823936228_2_alg».proof.Defs
import proofs.«126715_j90099823936228_2_alg».proof.Proof.Gen.Kernel
import proofs.«126715_j90099823936228_2_alg».proof.Proof.Gen.Kernel.Skeleton
import proofs.«126715_j90099823936228_2_alg».proof.Proof.Gen.Kernel.Launch
import proofs.«126715_j90099823936228_2_alg».proof.Proof.Gen.Kernel.Points
import proofs.«126715_j90099823936228_2_alg».proof.Proof.Gen.Kernel.Frame
import proofs.«126715_j90099823936228_2_alg».proof.Proof.Gen.KernelIdeal
import proofs.«126715_j90099823936228_2_alg».proof.Proof.Gen.KernelIdeal.Skeleton
import proofs.«126715_j90099823936228_2_alg».proof.Proof.Gen.KernelIdeal.Launch
import proofs.«126715_j90099823936228_2_alg».proof.Proof.Gen.KernelIdeal.Points
import proofs.«126715_j90099823936228_2_alg».proof.Proof.Gen.KernelIdeal.Frame
import proofs.«126715_j90099823936228_2_alg».proof.Proof.Gen.ReferenceIdeal
import proofs.«126715_j90099823936228_2_alg».proof.Proof.Gen.Pre_finite_inputs
import proofs.«126715_j90099823936228_2_alg».proof.Proof.Gen.KernelIdeal.Value
import proofs.«126715_j90099823936228_2_alg».proof.Proof.Gen.ReferenceIdeal.Run
import proofs.«126715_j90099823936228_2_alg».proof.Proof.Gen.ReferenceIdeal.Read
import Idealize.ShloMosaic.Adequacy
import Idealize.ShloMosaic.Init
import proofs.«126715_j90099823936228_2_alg».proof.Proof.KValue
import proofs.«126715_j90099823936228_2_alg».proof.Proof.RefValue
import proofs.«126715_j90099823936228_2_alg».proof.Proof.Finite
import proofs.«126715_j90099823936228_2_alg».proof.Proof.OnlineSpec

noncomputable section

namespace Cert.Proof

open Idealize.ShloMosaic Idealize.SL.Sem Cert.Kernel

/-- The kernel, as printed, runs and leaves its arguments unchanged. -/
theorem frame_k : Cert.frame_Kernel := fun m ρ _ => Cert.Kernel.Gen.frame m ρ

/-- So does the kernel read at the extended reals. -/
theorem frame_ki : Cert.frame_KernelIdeal := fun m ρ _ => Cert.KernelIdeal.Gen.frame m ρ

/-- So does the reference: its run states the result and the three arguments, of which the arguments are kept. -/
theorem frame_ri : Cert.frame_ReferenceIdeal := fun m ρ _ =>
  (θ_run Cert.ReferenceIdeal.defs _ _).mono (fun _ h c => (h c).2) (Cert.ReferenceIdeal.Value.run (F := Ideal) m ρ)

/-- The kernel's result array ends at the block-by-block attention Gon of its arguments, the reference's at the
    specification G of its own; the arguments agree, the precondition makes their entries reals, and for real
    entries Gon = G. -/
theorem algebraic : Cert.algebraic_KernelIdeal_ReferenceIdeal := by
  intro m ρ m' ρ' hpre hagree
  refine ⟨_, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  obtain ⟨hQ, hK, hV⟩ := Cert.Attn.Finite.finite_of_pre _ _ _ (hpre c)
  refine (Cert.ReferenceIdeal.RefValue.ref_is_G _ _ _).trans ?_
  rw [(hagree c).1, (hagree c).2.1, (hagree c).2.2]
  exact (Cert.Attn.Gon_eq_G _ _ _ hQ hK hV).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
